-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S1000000 : Shape := ⟨1, ![1000000]⟩
abbrev S250000 : Shape := ⟨1, ![250000]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256x256 .f32) (main_arg9 : FVec F S256 .f32) (main_arg10 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S200000x256 .f32) (main_arg1 : IVec S1000000 32) (main_arg2 : IVec S1000000 32) (main_arg3 : IVec S250000 32) (main_arg4 : IVec S250000 32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_v13 main_v16
-- ==== Kernel.lean ====
abbrev S200000x256 : Shape := ⟨2, ![200000, 256]⟩
abbrev S1000000 : Shape := ⟨1, ![1000000]⟩
abbrev S250000 : Shape := ⟨1, ![250000]⟩
abbrev S256x256 : Shape := ⟨2, ![256, 256]⟩
abbrev S256 : Shape := ⟨1, ![256]⟩
abbrev S_ : Shape := ⟨0, ![]⟩
abbrev S1000000x1 : Shape := ⟨2, ![1000000, 1]⟩
abbrev S1000000x256 : Shape := ⟨2, ![1000000, 256]⟩
abbrev S40000x256 : Shape := ⟨2, ![40000, 256]⟩
abbrev S40000 : Shape := ⟨1, ![40000]⟩
abbrev S40000x1 : Shape := ⟨2, ![40000, 1]⟩
abbrev S1x256 : Shape := ⟨2, ![1, 256]⟩
abbrev S4000x256 : Shape := ⟨2, ![4000, 256]⟩
abbrev S4000x1 : Shape := ⟨2, ![4000, 1]⟩
abbrev S250000x1 : Shape := ⟨2, ![250000, 1]⟩
abbrev S250000x256 : Shape := ⟨2, ![250000, 256]⟩
abbrev S10000x256 : Shape := ⟨2, ![10000, 256]⟩
abbrev S10000 : Shape := ⟨1, ![10000]⟩
abbrev S10000x1 : Shape := ⟨2, ![10000, 1]⟩
abbrev S2000x256 : Shape := ⟨2, ![2000, 256]⟩
abbrev S2000x1 : Shape := ⟨2, ![2000, 1]⟩

abbrev nBuf : Space → Nat
  | .hbm => 55
  | .vmem => 22
  | .smem => 0
  | _ => 0

abbrev bufTy : (tb : Table) → Fin (tcTables nBuf tb) → BufTy
  | .hbm, ⟨0, _⟩ => ⟨S200000x256, .f32⟩
  | .hbm, ⟨1, _⟩ => ⟨S1000000, .i32⟩
  | .hbm, ⟨2, _⟩ => ⟨S1000000, .i32⟩
  | .hbm, ⟨3, _⟩ => ⟨S250000, .i32⟩
  | .hbm, ⟨4, _⟩ => ⟨S250000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x256, .f32⟩
  | .hbm, ⟨20, _⟩ => ⟨S_, .f32⟩
  | .hbm, ⟨21, _⟩ => ⟨S40000x256, .f32⟩
  | .hbm, ⟨22, _⟩ => ⟨S1000000x1, .i32⟩
  | .hbm, ⟨23, _⟩ => ⟨S40000x256, .f32⟩
  | .hbm, ⟨24, _⟩ => ⟨S_, .f32⟩
  | .hbm, ⟨25, _⟩ => ⟨S1000000, .f32⟩
  | .hbm, ⟨26, _⟩ => ⟨S_, .f32⟩
  | .hbm, ⟨27, _⟩ => ⟨S40000, .f32⟩
  | .hbm, ⟨28, _⟩ => ⟨S1000000x1, .i32⟩
  | .hbm, ⟨29, _⟩ => ⟨S40000, .f32⟩
  | .hbm, ⟨30, _⟩ => ⟨S40000x1, .f32⟩
  | .hbm, ⟨31, _⟩ => ⟨S1x256, .f32⟩
  | .hbm, ⟨32, _⟩ => ⟨S40000x256, .f32⟩
  | .hbm, ⟨33, _⟩ => ⟨S_, .i32⟩
  | .hbm, ⟨34, _⟩ => ⟨S250000, .i32⟩
  | .hbm, ⟨35, _⟩ => ⟨S250000, .i1⟩
  | .hbm, ⟨36, _⟩ => ⟨S_, .i32⟩
  | .hbm, ⟨37, _⟩ => ⟨S250000, .i32⟩
  | .hbm, ⟨38, _⟩ => ⟨S250000, .i32⟩
  | .hbm, ⟨39, _⟩ => ⟨S250000, .i32⟩
  | .hbm, ⟨40, _⟩ => ⟨S250000x1, .i32⟩
  | .hbm, ⟨41, _⟩ => ⟨S250000x256, .f32⟩
  | .hbm, ⟨42, _⟩ => ⟨S_, .f32⟩
  | .hbm, ⟨43, _⟩ => ⟨S10000x256, .f32⟩
  | .hbm, ⟨44, _⟩ => ⟨S250000x1, .i32⟩
  | .hbm, ⟨45, _⟩ => ⟨S10000x256, .f32⟩
  | .hbm, ⟨46, _⟩ => ⟨S_, .f32⟩
  | .hbm, ⟨47, _⟩ => ⟨S250000, .f32⟩
  | .hbm, ⟨48, _⟩ => ⟨S_, .f32⟩
  | .hbm, ⟨49, _⟩ => ⟨S10000, .f32⟩
  | .hbm, ⟨50, _⟩ => ⟨S250000x1, .i32⟩
  | .hbm, ⟨51, _⟩ => ⟨S10000, .f32⟩
  | .hbm, ⟨52, _⟩ => ⟨S10000x1, .f32⟩
  | .hbm, ⟨53, _⟩ => ⟨S1x256, .f32⟩
  | .hbm, ⟨54, _⟩ => ⟨S10000x256, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S4000x256, .f32⟩
  | .local _ .vmem, ⟨5, _⟩ => ⟨S4000x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S4000x256, .f32⟩
  | .local _ .vmem, ⟨10, _⟩ => ⟨S4000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S2000x256, .f32⟩
  | .local _ .vmem, ⟨21, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S40000x256 : S_.BroadcastsInDim S40000x256 (![] : Fin 0 → Fin S40000x256.rank)
  bcast_S_S40000 : S_.BroadcastsInDim S40000 (![] : Fin 0 → Fin S40000.rank)
  shapeCasts_S40000_S40000x1 : S40000.ShapeCasts S40000x1
  shapeCasts_S256_S1x256 : S256.ShapeCasts S1x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S4000x1_S4000x256 : S4000x1.Broadcasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S250000 : S_.BroadcastsInDim S250000 (![] : Fin 0 → Fin S250000.rank)
  bcast_S250000_S250000x1_0 : S250000.BroadcastsInDim S250000x1 (![0] : Fin 1 → Fin S250000x1.rank)
  bcast_S_S10000x256 : S_.BroadcastsInDim S10000x256 (![] : Fin 0 → Fin S10000x256.rank)
  bcast_S_S10000 : S_.BroadcastsInDim S10000 (![] : Fin 0 → Fin S10000.rank)
  shapeCasts_S10000_S10000x1 : S10000.ShapeCasts S10000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  broadcasts_S1x256_S2000x256 : S1x256.Broadcasts S2000x256
  gather_S200000x256_S1000000x1_S1000000x256_1_0_n_n_0_1_1256_wf : GatherDims.WF S200000x256 S1000000x1 S1000000x256 [1] [0] [] [0] [] 1 ![1, 256]
  scatter_S40000x256_S1000000x1_S1000000x256_1_0_0_1_wf : ScatterDims.WF S40000x256 S1000000x1 S1000000x256 [1] [0] [0] 1
  scatter_S40000_S1000000x1_S1000000_n_0_0_1_wf : ScatterDims.WF S40000 S1000000x1 S1000000 [] [0] [0] 1
  dot_S4000x256_S256x256_S4000x256_1_0_0_1_n_n_wf : DotDims.WF S4000x256 S256x256 S4000x256 [1] [0] [0] [1] [] []
  gather_S40000x256_S250000x1_S250000x256_1_0_n_n_0_1_1256_wf : GatherDims.WF S40000x256 S250000x1 S250000x256 [1] [0] [] [0] [] 1 ![1, 256]
  scatter_S10000x256_S250000x1_S250000x256_1_0_0_1_wf : ScatterDims.WF S10000x256 S250000x1 S250000x256 [1] [0] [0] 1
  scatter_S10000_S250000x1_S250000_n_0_0_1_wf : ScatterDims.WF S10000 S250000x1 S250000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S40000x256.size a
  hwx0_0 : ∀ i : grid0.Coords, EltTy.bits .f32 = 32 ∨ (Rect.block (s := S40000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S40000x1.size a
  hwx0_1 : ∀ i : grid0.Coords, EltTy.bits .f32 = 32 ∨ (Rect.block (s := S40000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S200000x256.size a
  hwx0_2 : ∀ i : grid0.Coords, EltTy.bits .f32 = 32 ∨ (Rect.block (s := S200000x256) S4000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S40000x256.size a
  hwx0_6 : ∀ i : grid0.Coords, EltTy.bits .f32 = 32 ∨ (Rect.block (s := S40000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S40000x256.size a
  hwx1_2 : ∀ i : grid1.Coords, EltTy.bits .f32 = 32 ∨ (Rect.block (s := S40000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S10000x256.size a
  hwx1_6 : ∀ i : grid1.Coords, EltTy.bits .f32 = 32 ∨ (Rect.block (s := S10000x256) S2000x256.size (cc1_transform_6 i) (hinb1_6 i)).WholeWords (EltTy.packing .f32)

variable [Facts₀]

def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S40000x256_S1000000x1_S1000000x256_1_0_0_1 : ScatterDims S40000x256 S1000000x1 S1000000x256 where
  updateWindowDims := [1]
  insertedWindowDims := [0]
  scatterDimsToOperandDims := [0]
  indexVectorDim := 1
  wf := scatter_S40000x256_S1000000x1_S1000000x256_1_0_0_1_wf
def scatter_S40000_S1000000x1_S1000000_n_0_0_1 : ScatterDims S40000 S1000000x1 S1000000 where
  updateWindowDims := []
  insertedWindowDims := [0]
  scatterDimsToOperandDims := [0]
  indexVectorDim := 1
  wf := scatter_S40000_S1000000x1_S1000000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S10000x256_S250000x1_S250000x256_1_0_0_1 : ScatterDims S10000x256 S250000x1 S250000x256 where
  updateWindowDims := [1]
  insertedWindowDims := [0]
  scatterDimsToOperandDims := [0]
  indexVectorDim := 1
  wf := scatter_S10000x256_S250000x1_S250000x256_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v9) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x256 : Shape := ⟨2, ![200000, 256]⟩
abbrev S1000000 : Shape := ⟨1, ![1000000]⟩
abbrev S250000 : Shape := ⟨1, ![250000]⟩
abbrev S256x256 : Shape := ⟨2, ![256, 256]⟩
abbrev S256 : Shape := ⟨1, ![256]⟩
abbrev S40000x256 : Shape := ⟨2, ![40000, 256]⟩
abbrev S_ : Shape := ⟨0, ![]⟩
abbrev S1000000x1 : Shape := ⟨2, ![1000000, 1]⟩
abbrev S1000000x256 : Shape := ⟨2, ![1000000, 256]⟩
abbrev S40000 : Shape := ⟨1, ![40000]⟩
abbrev S40000x1 : Shape := ⟨2, ![40000, 1]⟩
abbrev S1x256 : Shape := ⟨2, ![1, 256]⟩
abbrev S10000x256 : Shape := ⟨2, ![10000, 256]⟩
abbrev S250000x1 : Shape := ⟨2, ![250000, 1]⟩
abbrev S250000x256 : Shape := ⟨2, ![250000, 256]⟩
abbrev S10000 : Shape := ⟨1, ![10000]⟩
abbrev S10000x1 : Shape := ⟨2, ![10000, 1]⟩

abbrev nBuf : Space → Nat
  | .hbm => 78
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S1000000, .i32⟩
  | .hbm, ⟨2, _⟩ => ⟨S1000000, .i32⟩
  | .hbm, ⟨3, _⟩ => ⟨S250000, .i32⟩
  | .hbm, ⟨4, _⟩ => ⟨S250000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S40000x256, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x256, .f32⟩
  | .hbm, ⟨21, _⟩ => ⟨S_, .f32⟩
  | .hbm, ⟨22, _⟩ => ⟨S40000x256, .f32⟩
  | .hbm, ⟨23, _⟩ => ⟨S1000000x1, .i32⟩
  | .hbm, ⟨24, _⟩ => ⟨S40000x256, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S40000, .f32⟩
  | .hbm, ⟨29, _⟩ => ⟨S1000000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x256, .f32⟩
  | .hbm, ⟨36, _⟩ => ⟨S40000x256, .f32⟩
  | .hbm, ⟨37, _⟩ => ⟨S40000x256, .f32⟩
  | .hbm, ⟨38, _⟩ => ⟨S1x256, .f32⟩
  | .hbm, ⟨39, _⟩ => ⟨S40000x256, .f32⟩
  | .hbm, ⟨40, _⟩ => ⟨S40000x256, .f32⟩
  | .hbm, ⟨41, _⟩ => ⟨S40000x256, .f32⟩
  | .hbm, ⟨42, _⟩ => ⟨S40000x256, .f32⟩
  | .hbm, ⟨43, _⟩ => ⟨S_, .f32⟩
  | .hbm, ⟨44, _⟩ => ⟨S40000x256, .f32⟩
  | .hbm, ⟨45, _⟩ => ⟨S40000x256, .f32⟩
  | .hbm, ⟨46, _⟩ => ⟨S10000x256, .f32⟩
  | .hbm, ⟨47, _⟩ => ⟨S_, .i32⟩
  | .hbm, ⟨48, _⟩ => ⟨S250000, .i32⟩
  | .hbm, ⟨49, _⟩ => ⟨S250000, .i1⟩
  | .hbm, ⟨50, _⟩ => ⟨S_, .i32⟩
  | .hbm, ⟨51, _⟩ => ⟨S250000, .i32⟩
  | .hbm, ⟨52, _⟩ => ⟨S250000, .i32⟩
  | .hbm, ⟨53, _⟩ => ⟨S250000, .i32⟩
  | .hbm, ⟨54, _⟩ => ⟨S250000x1, .i32⟩
  | .hbm, ⟨55, _⟩ => ⟨S250000x256, .f32⟩
  | .hbm, ⟨56, _⟩ => ⟨S_, .f32⟩
  | .hbm, ⟨57, _⟩ => ⟨S10000x256, .f32⟩
  | .hbm, ⟨58, _⟩ => ⟨S250000x1, .i32⟩
  | .hbm, ⟨59, _⟩ => ⟨S10000x256, .f32⟩
  | .hbm, ⟨60, _⟩ => ⟨S_, .f32⟩
  | .hbm, ⟨61, _⟩ => ⟨S250000, .f32⟩
  | .hbm, ⟨62, _⟩ => ⟨S_, .f32⟩
  | .hbm, ⟨63, _⟩ => ⟨S10000, .f32⟩
  | .hbm, ⟨64, _⟩ => ⟨S250000x1, .i32⟩
  | .hbm, ⟨65, _⟩ => ⟨S10000, .f32⟩
  | .hbm, ⟨66, _⟩ => ⟨S_, .f32⟩
  | .hbm, ⟨67, _⟩ => ⟨S10000, .f32⟩
  | .hbm, ⟨68, _⟩ => ⟨S10000, .f32⟩
  | .hbm, ⟨69, _⟩ => ⟨S10000x1, .f32⟩
  | .hbm, ⟨70, _⟩ => ⟨S10000x256, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S10000x256, .f32⟩
  | .hbm, ⟨77, _⟩ => ⟨S10000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S200000x256_S40000x256_0_0 : S200000x256.Slices ![0, 0] S40000x256
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  slices_S40000x256_S10000x256_0_0 : S40000x256.Slices ![0, 0] S10000x256
  bcast_S_S250000 : S_.BroadcastsInDim S250000 (![] : Fin 0 → Fin S250000.rank)
  bcast_S250000_S250000x1_0 : S250000.BroadcastsInDim S250000x1 (![0] : Fin 1 → Fin S250000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  gather_S200000x256_S1000000x1_S1000000x256_1_0_n_n_0_1_1256_wf : GatherDims.WF S200000x256 S1000000x1 S1000000x256 [1] [0] [] [0] [] 1 ![1, 256]
  scatter_S40000x256_S1000000x1_S1000000x256_1_0_0_1_wf : ScatterDims.WF S40000x256 S1000000x1 S1000000x256 [1] [0] [0] 1
  scatter_S40000_S1000000x1_S1000000_n_0_0_1_wf : ScatterDims.WF S40000 S1000000x1 S1000000 [] [0] [0] 1
  dot_S40000x256_S256x256_S40000x256_1_0_0_1_n_n_wf : DotDims.WF S40000x256 S256x256 S40000x256 [1] [0] [0] [1] [] []
  gather_S40000x256_S250000x1_S250000x256_1_0_n_n_0_1_1256_wf : GatherDims.WF S40000x256 S250000x1 S250000x256 [1] [0] [] [0] [] 1 ![1, 256]
  scatter_S10000x256_S250000x1_S250000x256_1_0_0_1_wf : ScatterDims.WF S10000x256 S250000x1 S250000x256 [1] [0] [0] 1
  scatter_S10000_S250000x1_S250000_n_0_0_1_wf : ScatterDims.WF S10000 S250000x1 S250000 [] [0] [0] 1
  dot_S10000x256_S256x256_S10000x256_1_0_0_1_n_n_wf : DotDims.WF S10000x256 S256x256 S10000x256 [1] [0] [0] [1] [] []

variable [Facts₀]

def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S40000x256_S1000000x1_S1000000x256_1_0_0_1 : ScatterDims S40000x256 S1000000x1 S1000000x256 where
  updateWindowDims := [1]
  insertedWindowDims := [0]
  scatterDimsToOperandDims := [0]
  indexVectorDim := 1
  wf := scatter_S40000x256_S1000000x1_S1000000x256_1_0_0_1_wf
def scatter_S40000_S1000000x1_S1000000_n_0_0_1 : ScatterDims S40000 S1000000x1 S1000000 where
  updateWindowDims := []
  insertedWindowDims := [0]
  scatterDimsToOperandDims := [0]
  indexVectorDim := 1
  wf := scatter_S40000_S1000000x1_S1000000_n_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S10000x256_S250000x1_S250000x256_1_0_0_1 : ScatterDims S10000x256 S250000x1 S250000x256 where
  updateWindowDims := [1]
  insertedWindowDims := [0]
  scatterDimsToOperandDims := [0]
  indexVectorDim := 1
  wf := scatter_S10000x256_S250000x1_S250000x256_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The kernel program's run with its result named: every weakly fair execution ends, nothing faulting, with the result
  array at the contents the last boundary of the fold through the program gives it, and the arguments as launched.
-/
import proofs.«110619_j42812234006571_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which needs plain
-- definitions unfolded inside a metavariable's type
set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  -- The program is four segments in order (host stretch, region, host stretch, region), and the fold through them
  -- gives each unscoped buffer's contents at every segment boundary: W0 at launch, …, W4 after the last region.
  -- The launch theorem over the segments ends every core's thread state holding all its unscoped buffers at W4;
  -- read against the final memory, that says the final memory agrees with W4 at every unscoped buffer (QY below).
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch resource: the initial cell tallies and tokens, and nothing per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- at launch each core holds its unscoped buffers at the launch memory W0, its generator register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- holding every unscoped buffer at W4 beside the state interpretation: the memory reads W4 at each of them
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      -- The result array is an unscoped buffer of the TensorCore, so it is among those read at the last boundary:
      -- its final contents are W4's, with nothing further to walk back. Each argument is also unscoped, and no host
      -- operation or region writes it, so W4 at an argument is the launch memory.
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

/-- The last boundary's contents at the result array: the second region's seventh array (its one output) is the result
    buffer, and at a region's exit each of its arrays holds what the pipeline leaves after all its steps. -/
theorem W4_result (c : Dev nD) : W4 m ρ c (Proc.devRef .tc main_v33) = (dat1 (V3 m ρ) c).arrAt 6 cfg1.N :=
  W4_arr m ρ c 6

/-- The first region's exit contents at its output array: the first region's seventh array (its one output) is this
    buffer, and at the region's exit it holds what the pipeline leaves after all its steps. -/
theorem W2_hidden (c : Dev nD) : W2 m ρ c (Proc.devRef .tc main_v16) = (dat0 (V1 m ρ) c).arrAt 6 cfg0.N :=
  W2_arr m ρ c 6

end Cert.KernelIdeal.Run

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.LibSageLin.lean ====
/-
  One linear layer of a mean-aggregating graph convolution on matrices of extended reals, generic in the sizes.
  From the neighbour sums g [A, K], the neighbour counts n [A, 1] (a column), the nodes' own features x [A, K], two weight
  matrices wl, wr [K, B] and a bias row b [1, B]:

    meanRows g n    entry (r, k) is g(r, k) / max n(r, 0) 1:   every row of g divided by that row's count, the count
                                                              raised to at least one (a node with no neighbour keeps 0 / 1)
    topRows h x     the first A rows of a matrix x of M ≥ A rows
    lin             entry (r, c) is (∑ k, meanRows g n (r, k) · wl(k, c) + ∑ k, x(r, k) · wr(k, c)) + b(0, c):
                    the two products added first, the bias row last
    linRef          entry (r, c) is (∑ k, meanRows g n (r, k) · wl(k, c) + b(0, c)) + ∑ k, x(r, k) · wr(k, c):
                    the bias row added to the first product, the second product last
    linRelu, linReluRef   the same two, every entry cut off below at zero

  The two orders are one function: addition of extended reals is commutative and associative at every value, the
  infinities included, so no entry has to be finite (lin_eq_linRef, linRelu_eq_linReluRef).
-/
import proofs.«110619_j42812234006571_2_alg».proof.Proof.LibRowOps

noncomputable section

namespace Cert.SageLin

open Idealize.ShloMosaic Idealize.ShloMosaic.ValueIdx Cert.RowOps

/-- Every row of `g` divided by that row's entry of the column `n`, the divisor raised to at least one. -/
def meanRows {A B : ℕ} (g : (⟨2, ![A, B]⟩ : Shape).Idx → EReal) (n : (⟨2, ![A, 1]⟩ : Shape).Idx → EReal) :
    (⟨2, ![A, B]⟩ : Shape).Idx → EReal :=
  fun i => Ideal.div (g i) (max (n (col0 i)) (Ideal.ofBits .f32 0x3F800000#32))

/-- The first `A` rows of a matrix of `M ≥ A` rows. -/
def topRows {A M K : ℕ} (h : A ≤ M) (x : (⟨2, ![M, K]⟩ : Shape).Idx → EReal) : (⟨2, ![A, K]⟩ : Shape).Idx → EReal :=
  fun i => x (ix2 (⟨(i 0).val, lt_of_lt_of_le (idx2_lt0 i) h⟩ : Fin M) (⟨(i 1).val, idx2_lt1 i⟩ : Fin K))

/-- The two products, of the row means with `wl` and of the nodes' own features with `wr`, added. -/
def twoProducts {A K B : ℕ} (g : (⟨2, ![A, K]⟩ : Shape).Idx → EReal) (n : (⟨2, ![A, 1]⟩ : Shape).Idx → EReal)
    (x : (⟨2, ![A, K]⟩ : Shape).Idx → EReal) (wl wr : (⟨2, ![K, B]⟩ : Shape).Idx → EReal) :
    (⟨2, ![A, B]⟩ : Shape).Idx → EReal :=
  fun i => matProd (meanRows g n) wl i + matProd x wr i

/-- The layer, the two products added first and the bias row last. -/
def lin {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    (⟨2, ![A, B]⟩ : Shape).Idx → EReal :=
  addRow (twoProducts g n x wl wr) b

/-- The layer in that order, every entry cut off below at zero. -/
def linRelu {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    (⟨2, ![A, B]⟩ : Shape).Idx → EReal :=
  reluRow (twoProducts g n x wl wr) b

/-- The layer, the bias row added to the first product and the second product last. -/
def linRef {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    (⟨2, ![A, B]⟩ : Shape).Idx → EReal :=
  fun i => addRow (matProd (meanRows g n) wl) b i + matProd x wr i

/-- The layer in the second order, every entry cut off below at zero. -/
def linReluRef {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    (⟨2, ![A, B]⟩ : Shape).Idx → EReal :=
  fun i => max (linRef g n x wl b wr i) (Ideal.ofBits .f32 0x00000000#32)

/-- The two orders of the three summands are one function: a + c + b = a + b + c on the extended reals. -/
theorem lin_eq_linRef {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    lin g n x wl b wr = linRef g n x wl b wr :=
  funext fun i => by
    show matProd (meanRows g n) wl i + matProd x wr i + b (row0 i) = matProd (meanRows g n) wl i + b (row0 i) + matProd x wr i
    exact add_right_comm _ _ _

/-- The same under the cut-off at zero. -/
theorem linRelu_eq_linReluRef {A K B : ℕ} (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal) :
    linRelu g n x wl b wr = linReluRef g n x wl b wr :=
  funext fun i => by
    show max (lin g n x wl b wr i) _ = max (linRef g n x wl b wr i) _
    rw [lin_eq_linRef]

end Cert.SageLin

end
-- ==== Proof.Terms.lean ====
/-
  The two-layer graph convolution as ONE function of the eleven argument arrays, on extended reals.

  A hop gathers the source nodes' feature rows along the edges (a negative source number counted from the end),
  adds each gathered row into its target node's row (`nbrSum`), counts every target's edges (`nbrCount`) and
  applies one linear layer to the row means and the targets' own features: the targets are the first rows of the
  source array. The first hop's layer is cut off below at zero (`hidden`, 40000 rows); the second hop runs on the hidden
  rows (`output`, 10000 rows).
-/
import proofs.«110619_j42812234006571_2_alg».proof.Proof.Gen.KernelIdeal
import proofs.«110619_j42812234006571_2_alg».proof.Proof.LibSageLin

noncomputable section

namespace Cert.KernelIdeal.Terms

open Idealize.ShloMosaic Cert.KernelIdeal Cert.KernelIdeal.Facts₀ Cert.KernelIdeal.Facts Cert.SageLin

/-- Hop 1: per target node, the sum of its edges' source rows of `a0` (sources `a1`, targets `a2`). -/
def nbrSum0 (a0 : FVec Ideal S200000x256 .f32) (a1 a2 : IVec S1000000 32) : FVec Ideal S40000x256 .f32 :=
  Host.scatterAdd (F := Ideal) scatter_S40000x256_S1000000x1_S1000000x256_1_0_0_1
    (broadcastInDim S40000x256 ![] bcast_S_S40000x256 (constant (F := Ideal) S_ .f32 0x00000000#32))
    (broadcastInDim S1000000x1 ![0] bcast_S1000000_S1000000x1_0 a2)
    (Host.gather gather_S200000x256_S1000000x1_S1000000x256_1_0_n_n_0_1_1256 a0
      (broadcastInDim S1000000x1 ![0] bcast_S1000000_S1000000x1_0
        (select (cmpi .slt a1 (broadcastInDim S1000000 ![] bcast_S_S1000000 (constantI S_ 32 0#32)))
          (addi a1 (broadcastInDim S1000000 ![] bcast_S_S1000000 (constantI S_ 32 200000#32))) a1)))

/-- Hop 1: per target node, the number of its edges. -/
def nbrCount0 (a2 : IVec S1000000 32) : FVec Ideal S40000 .f32 :=
  Host.scatterAdd (F := Ideal) scatter_S40000_S1000000x1_S1000000_n_0_0_1
    (broadcastInDim S40000 ![] bcast_S_S40000 (constant (F := Ideal) S_ .f32 0x00000000#32))
    (broadcastInDim S1000000x1 ![0] bcast_S1000000_S1000000x1_0 a2)
    (broadcastInDim S1000000 ![] bcast_S_S1000000 (constant (F := Ideal) S_ .f32 0x3F800000#32))

/-- The hidden rows: hop 1's layer, cut off below at zero. -/
def hidden (a0 : FVec Ideal S200000x256 .f32) (a1 a2 : IVec S1000000 32) (a5 : FVec Ideal S256x256 .f32)
    (a6 : FVec Ideal S256 .f32) (a7 : FVec Ideal S256x256 .f32) : FVec Ideal S40000x256 .f32 :=
  linRelu (nbrSum0 a0 a1 a2) (shapeCast S40000x1 (nbrCount0 a2) shapeCasts_S40000_S40000x1)
    (topRows (A := 40000) (by norm_num) a0) a5 (shapeCast S1x256 a6 shapeCasts_S256_S1x256) a7

/-- Hop 2: per target node, the sum of its edges' source rows of `h` (sources `a3`, targets `a4`). -/
def nbrSum1 (h : FVec Ideal S40000x256 .f32) (a3 a4 : IVec S250000 32) : FVec Ideal S10000x256 .f32 :=
  Host.scatterAdd (F := Ideal) scatter_S10000x256_S250000x1_S250000x256_1_0_0_1
    (broadcastInDim S10000x256 ![] bcast_S_S10000x256 (constant (F := Ideal) S_ .f32 0x00000000#32))
    (broadcastInDim S250000x1 ![0] bcast_S250000_S250000x1_0 a4)
    (Host.gather gather_S40000x256_S250000x1_S250000x256_1_0_n_n_0_1_1256 h
      (broadcastInDim S250000x1 ![0] bcast_S250000_S250000x1_0
        (select (cmpi .slt a3 (broadcastInDim S250000 ![] bcast_S_S250000 (constantI S_ 32 0#32)))
          (addi a3 (broadcastInDim S250000 ![] bcast_S_S250000 (constantI S_ 32 40000#32))) a3)))

/-- Hop 2: per target node, the number of its edges. -/
def nbrCount1 (a4 : IVec S250000 32) : FVec Ideal S10000 .f32 :=
  Host.scatterAdd (F := Ideal) scatter_S10000_S250000x1_S250000_n_0_0_1
    (broadcastInDim S10000 ![] bcast_S_S10000 (constant (F := Ideal) S_ .f32 0x00000000#32))
    (broadcastInDim S250000x1 ![0] bcast_S250000_S250000x1_0 a4)
    (broadcastInDim S250000 ![] bcast_S_S250000 (constant (F := Ideal) S_ .f32 0x3F800000#32))

/-- Hop 2's layer on given hidden rows `h`. -/
def outputOf (h : FVec Ideal S40000x256 .f32) (a3 a4 : IVec S250000 32) (a8 : FVec Ideal S256x256 .f32)
    (a9 : FVec Ideal S256 .f32) (a10 : FVec Ideal S256x256 .f32) : FVec Ideal S10000x256 .f32 :=
  lin (nbrSum1 h a3 a4) (shapeCast S10000x1 (nbrCount1 a4) shapeCasts_S10000_S10000x1)
    (topRows (A := 10000) (by norm_num) h) a8 (shapeCast S1x256 a9 shapeCasts_S256_S1x256) a10

/-- The result: hop 2's layer on the hidden rows of hop 1. -/
def output (a0 : FVec Ideal S200000x256 .f32) (a1 a2 : IVec S1000000 32) (a3 a4 : IVec S250000 32)
    (a5 : FVec Ideal S256x256 .f32) (a6 : FVec Ideal S256 .f32) (a7 a8 : FVec Ideal S256x256 .f32)
    (a9 : FVec Ideal S256 .f32) (a10 : FVec Ideal S256x256 .f32) : FVec Ideal S10000x256 .f32 :=
  outputOf (hidden a0 a1 a2 a5 a6 a7) a3 a4 a8 a9 a10

end Cert.KernelIdeal.Terms

end
-- ==== Proof.Payload.lean ====
/-
  What each kernel body stores, as the layer function of the blocks it loads (extended reals; a change of float
  format is the identity there).

  The body raises the count column to at least one, divides every row of the sums block by its count (the column
  broadcast over the columns), multiplies the quotient by wl and the own-features block by wr, each product taken into a
  zero accumulator, adds the two products, adds the bias row broadcast over the rows, and (first call only) takes the
  maximum with zero. A shape cast between equal shapes is the identity, and so is a truncation to a narrower float
  format on extended reals; what is left is, operation by operation, meanRows, matProd, addRow and reluRow.
-/
import proofs.«110619_j42812234006571_2_alg».proof.Proof.Gen.KernelIdeal.Skeleton
import proofs.«110619_j42812234006571_2_alg».proof.Proof.LibSageLin

noncomputable section

namespace Cert.KernelIdeal.Body

open Idealize.ShloMosaic Idealize.ShloMosaic.ValueIdx Cert.KernelIdeal Cert.KernelIdeal.Gen Cert.RowOps Cert.SageLin

/-- The body's quotient of a block `x0` by a column block `x1`, raised to at least one and broadcast over the columns,
    is `meanRows x0 x1`: entry (r, c) is x0(r, c) / max x1(r, 0) 1. -/
theorem divf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    divf x0 (broadcastTo ⟨2, ![A, B]⟩
      (maximumf x1 (broadcast ⟨2, ![A, 1]⟩ (Scalar.ofBits (F := Ideal) .f32 0x3F800000#32))) h) = meanRows x0 x1 :=
  funext fun i => by
    show Ideal.div (x0 i) (broadcastTo ⟨2, ![A, B]⟩
      (maximumf x1 (broadcast ⟨2, ![A, 1]⟩ (Scalar.ofBits (F := Ideal) .f32 0x3F800000#32))) h i)
        = Ideal.div (x0 i) (max (x1 (col0 i)) (Ideal.ofBits .f32 0x3F800000#32))
    refine congrArg (Ideal.div (x0 i) ·) ((broadcastTo_apply _ h i (col0 i) fun a => ?_).trans rfl)
    match a with
    | ⟨0, _⟩ =>
      show (i 0).val = if A = 1 then 0 else (i 0).val
      split
      · have := idx2_lt0 i; omega
      · rfl
    | ⟨1, _⟩ => rfl

/-! ## The first call's product: [4000, 256] by [256, 256], contracting the one shared axis -/

/-- The left index of the 4000 by 256 product takes the output's row on its free axis. -/
theorem d0_l0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl

/-- The left index takes the contraction position on its contracted axis. -/
theorem d0_l1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q

/-- The right index takes the contraction position on its contracted axis. -/
theorem d0_r0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q

/-- The right index takes the output's column on its free axis. -/
theorem d0_r1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- The matrix unit's product of a [4000, 256] block by a [256, 256] block into a zero accumulator is the matrix
    product of the two blocks, whatever float formats they are held in. -/
theorem d0_matmul {φ₁ φ₂ : FTy} (L : FVec Ideal S4000x256 φ₁) (R : FVec Ideal S256x256 φ₂) :
    matmul dot_S4000x256_S256x256_S4000x256_1_0_0_1_n_n none L R (constant S4000x256 .f32 0x00000000#32) = matProd (fun j => L j) (fun j => R j) :=
  matmul_eq_matProd dot_S4000x256_S256x256_S4000x256_1_0_0_1_n_n rfl rfl d0_l0 d0_l1 d0_r0 d0_r1 none L R

/-! ## The second call's product: [2000, 256] by [256, 256], contracting the one shared axis -/

/-- The left index of the 2000 by 256 product takes the output's row on its free axis. -/
theorem d1_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left index takes the contraction position on its contracted axis. -/
theorem d1_l1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- The right index takes the contraction position on its contracted axis. -/
theorem d1_r0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- The right index takes the output's column on its free axis. -/
theorem d1_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product of a [2000, 256] block by a [256, 256] block into a zero accumulator is the matrix
    product of the two blocks, whatever float formats they are held in. -/
theorem d1_matmul {φ₁ φ₂ : FTy} (L : FVec Ideal S2000x256 φ₁) (R : FVec Ideal S256x256 φ₂) :
    matmul dot_S2000x256_S256x256_S2000x256_1_0_0_1_n_n none L R (constant S2000x256 .f32 0x00000000#32) = matProd (fun j => L j) (fun j => R j) :=
  matmul_eq_matProd dot_S2000x256_S256x256_S2000x256_1_0_0_1_n_n rfl rfl d1_l0 d1_l1 d1_r0 d1_r1 none L R

/-- The first call's stored block is the layer, cut off below at zero, of the blocks it loads. -/
theorem pay0_eq (v0 : Vec Ideal S4000x1 .f32) (v4 v9 : Vec Ideal S4000x256 .f32) (v11 v13 : Vec Ideal S256x256 .f32)
    (v18 : Vec Ideal S1x256 .f32) :
    k0_pay1 (F := Ideal) v0 v4 v9 v11 v13 v18 = linRelu v4 v0 v9 v11 v18 v13 := by
  unfold k0_pay1
  dsimp only
  -- the three casts between equal shapes are the identity
  rw [shapeCast_self, shapeCast_self, shapeCast_self]
  -- each product into the zero accumulator is the matrix product; the truncations are the identity
  rw [d0_matmul, d0_matmul]
  show maximumf (addf (addf
      (matProd (divf v4 (broadcastTo S4000x256
        (maximumf v0 (broadcast S4000x1 (Scalar.ofBits (F := Ideal) .f32 0x3F800000#32))) broadcasts_S4000x1_S4000x256)) v11)
      (matProd v9 v13)) (broadcastTo S4000x256 v18 broadcasts_S1x256_S4000x256))
      (broadcast S4000x256 (Scalar.ofBits (F := Ideal) .f32 0x00000000#32)) = _
  -- the quotient is meanRows, the sum with the broadcast bias row is addRow, the maximum with zero is reluRow
  rw [divf_broadcastTo_col, addf_broadcastTo_row]
  exact maximumf_splatZero _ _

/-- The second call's stored block is the layer of the blocks it loads. -/
theorem pay1_eq (v0 : Vec Ideal S2000x1 .f32) (v4 v9 : Vec Ideal S2000x256 .f32) (v12 v14 : Vec Ideal S256x256 .f32)
    (v19 : Vec Ideal S1x256 .f32) :
    k1_pay1 (F := Ideal) v0 v4 v9 v12 v14 v19 = lin v4 v0 v9 v12 v19 v14 := by
  unfold k1_pay1
  dsimp only
  -- the four casts between equal shapes are the identity
  rw [shapeCast_self, shapeCast_self, shapeCast_self, shapeCast_self]
  -- each product into the zero accumulator is the matrix product; the truncations are the identity
  rw [d1_matmul, d1_matmul]
  show (addf (addf
      (matProd (divf v4 (broadcastTo S2000x256
        (maximumf v0 (broadcast S2000x1 (Scalar.ofBits (F := Ideal) .f32 0x3F800000#32))) broadcasts_S2000x1_S2000x256)) v12)
      (matProd v9 v14)) (broadcastTo S2000x256 v19 broadcasts_S1x256_S2000x256) : FVec Ideal S2000x256 .f32) = _
  -- the quotient is meanRows, the sum with the broadcast bias row is addRow
  rw [divf_broadcastTo_col, addf_broadcastTo_row]
  rfl

end Cert.KernelIdeal.Body

end
-- ==== Proof.Region0.lean ====
/-
  What the first call leaves in its output array: every grid point writes back its block of ONE function of the
  arrays the call finds, the layer of whole arrays; the blocks tile the array.

  An entry (r, c) of the layer reads only row r of the neighbour sums, of the counts and of the nodes' own features,
  column c of the two weight matrices and of the bias row. Point t works on rows 4000·t … 4000·t + 3999 and on whole
  weight matrices and bias row, so its block of the layer of blocks is the same block of the layer of arrays.
-/
import proofs.«110619_j42812234006571_2_alg».proof.Proof.Gen.KernelIdeal.Frame
import proofs.«110619_j42812234006571_2_alg».proof.Proof.Payload

noncomputable section

namespace Cert.KernelIdeal.Region0

open Idealize.ShloMosaic Idealize.ShloMosaic.TcCoe Idealize.SL.Sem Cert.KernelIdeal Cert.KernelIdeal.Gen Cert.SageLin
open Idealize.ShloMosaic.ValueIdx Cert.RowOps

/-- The zero offsets, however spelt. -/
theorem hz : (![0, 0] : Fin 2 → Nat) = fun _ => 0 := funext fun a => by fin_cases a <;> rfl

/-! ## An entry of the layer reads one row and one column -/

/-- The two products at an entry are determined by the entry's row of the sums, of the counts and of the features, and
    by the entry's column of the two weight matrices. -/
theorem twoProducts_congr {a A K B : ℕ}
    (g' : (⟨2, ![a, K]⟩ : Shape).Idx → EReal) (n' : (⟨2, ![a, 1]⟩ : Shape).Idx → EReal)
    (x' : (⟨2, ![a, K]⟩ : Shape).Idx → EReal) (wl' wr' : (⟨2, ![K, B]⟩ : Shape).Idx → EReal)
    (g : (⟨2, ![A, K]⟩ : Shape).Idx → EReal) (n : (⟨2, ![A, 1]⟩ : Shape).Idx → EReal)
    (x : (⟨2, ![A, K]⟩ : Shape).Idx → EReal) (wl wr : (⟨2, ![K, B]⟩ : Shape).Idx → EReal)
    (y : (⟨2, ![a, B]⟩ : Shape).Idx) (i : (⟨2, ![A, B]⟩ : Shape).Idx)
    (hg : ∀ k : Fin K, g' (ix2 (⟨(y 0).val, idx2_lt0 y⟩ : Fin a) k) = g (ix2 (⟨(i 0).val, idx2_lt0 i⟩ : Fin A) k))
    (hn : n' (col0 y) = n (col0 i))
    (hx : ∀ k : Fin K, x' (ix2 (⟨(y 0).val, idx2_lt0 y⟩ : Fin a) k) = x (ix2 (⟨(i 0).val, idx2_lt0 i⟩ : Fin A) k))
    (hwl : ∀ k : Fin K, wl' (ix2 k (⟨(y 1).val, idx2_lt1 y⟩ : Fin B)) = wl (ix2 k (⟨(i 1).val, idx2_lt1 i⟩ : Fin B)))
    (hwr : ∀ k : Fin K, wr' (ix2 k (⟨(y 1).val, idx2_lt1 y⟩ : Fin B)) = wr (ix2 k (⟨(i 1).val, idx2_lt1 i⟩ : Fin B))) :
    twoProducts g' n' x' wl' wr' y = twoProducts g n x wl wr i := by
  show (∑ k : Fin K, meanRows g' n' (ix2 (⟨(y 0).val, idx2_lt0 y⟩ : Fin a) k) * wl' (ix2 k (⟨(y 1).val, idx2_lt1 y⟩ : Fin B)))
        + (∑ k : Fin K, x' (ix2 (⟨(y 0).val, idx2_lt0 y⟩ : Fin a) k) * wr' (ix2 k (⟨(y 1).val, idx2_lt1 y⟩ : Fin B)))
      = (∑ k : Fin K, meanRows g n (ix2 (⟨(i 0).val, idx2_lt0 i⟩ : Fin A) k) * wl (ix2 k (⟨(i 1).val, idx2_lt1 i⟩ : Fin B)))
        + (∑ k : Fin K, x (ix2 (⟨(i 0).val, idx2_lt0 i⟩ : Fin A) k) * wr (ix2 k (⟨(i 1).val, idx2_lt1 i⟩ : Fin B)))
  have e1 : ∀ k : Fin K, meanRows g' n' (ix2 (⟨(y 0).val, idx2_lt0 y⟩ : Fin a) k)
      = meanRows g n (ix2 (⟨(i 0).val, idx2_lt0 i⟩ : Fin A) k) := fun k => by
    show Ideal.div (g' (ix2 (⟨(y 0).val, idx2_lt0 y⟩ : Fin a) k)) (max (n' (col0 y)) _)
      = Ideal.div (g (ix2 (⟨(i 0).val, idx2_lt0 i⟩ : Fin A) k)) (max (n (col0 i)) _)
    rw [hg k, hn]
  refine congrArg₂ (· + ·) (Finset.sum_congr rfl fun k _ => ?_) (Finset.sum_congr rfl fun k _ => ?_)
  · rw [e1 k, hwl k]
  · rw [hx k, hwr k]

/-- So is the layer cut off below at zero, with the entry's column of the bias row. -/
theorem linRelu_congr {a A K B : ℕ}
    (g' : (⟨2, ![a, K]⟩ : Shape).Idx → EReal) (n' : (⟨2, ![a, 1]⟩ : Shape).Idx → EReal)
    (x' : (⟨2, ![a, K]⟩ : Shape).Idx → EReal) (wl' : (⟨2, ![K, B]⟩ : Shape).Idx → EReal)
    (b' : (⟨2, ![1, B]⟩ : Shape).Idx → EReal) (wr' : (⟨2, ![K, B]⟩ : Shape).Idx → EReal)
    (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal)
    (y : (⟨2, ![a, B]⟩ : Shape).Idx) (i : (⟨2, ![A, B]⟩ : Shape).Idx)
    (hg : ∀ k : Fin K, g' (ix2 (⟨(y 0).val, idx2_lt0 y⟩ : Fin a) k) = g (ix2 (⟨(i 0).val, idx2_lt0 i⟩ : Fin A) k))
    (hn : n' (col0 y) = n (col0 i))
    (hx : ∀ k : Fin K, x' (ix2 (⟨(y 0).val, idx2_lt0 y⟩ : Fin a) k) = x (ix2 (⟨(i 0).val, idx2_lt0 i⟩ : Fin A) k))
    (hwl : ∀ k : Fin K, wl' (ix2 k (⟨(y 1).val, idx2_lt1 y⟩ : Fin B)) = wl (ix2 k (⟨(i 1).val, idx2_lt1 i⟩ : Fin B)))
    (hb : b' (row0 y) = b (row0 i))
    (hwr : ∀ k : Fin K, wr' (ix2 k (⟨(y 1).val, idx2_lt1 y⟩ : Fin B)) = wr (ix2 k (⟨(i 1).val, idx2_lt1 i⟩ : Fin B))) :
    linRelu g' n' x' wl' b' wr' y = linRelu g n x wl b wr i := by
  show max (twoProducts g' n' x' wl' wr' y + b' (row0 y)) _ = max (twoProducts g n x wl wr i + b (row0 i)) _
  rw [twoProducts_congr g' n' x' wl' wr' g n x wl wr y i hg hn hx hwl hwr, hb]

/-! ## The index maps over the grid -/

/-- The printed index maps, decided over the ten grid points: the three row-blocked inputs and the output take block
    (t, 0) at point t, the two weight matrices and the bias row block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 10 :=
  (by decide +kernel : ∀ t : Fin grid0.N, _)

/-! ## Each input block, read off its array -/

section Reads

variable (V : (c : Dev nD) → (b : Ref sig .tc) → Buf (Elt Ideal) ((c : Thread nD τ).loc b)) (c : Dev nD)

/-- Point t's block of the neighbour sums is rows 4000·t … 4000·t + 3999 of the array. -/
theorem blk_sums (t : Fin cfg0.N) (x : S4000x256.Idx) (i : S40000x256.Idx)
    (h0 : (i 0).val = t.val * 4000 + (x 0).val) (h1 : (i 1).val = (x 1).val) :
    (iblk0 V c 0 t : Vec Ideal S4000x256 .f32) x = (V c main_v9 : S40000x256.Idx → EReal) i := by
  obtain ⟨e0, e1, -⟩ := idx_facts t
  unfold iblk0
  rw [View.read_apply]
  show V c main_v9 _ = V c main_v9 _
  refine congrArg _ ?_
  funext a; apply Fin.ext
  match a with
  | ⟨0, _⟩ => show win0_0.index t (0 : Fin 2) * 4000 + 1 * (x 0).val = (i 0).val; rw [e0, h0]; omega
  | ⟨1, _⟩ => show win0_0.index t (1 : Fin 2) * 256 + 1 * (x 1).val = (i 1).val; rw [e1, h1]; omega

/-- Point t's block of the neighbour counts is rows 4000·t … 4000·t + 3999 of the column. -/
theorem blk_counts (t : Fin cfg0.N) (x : S4000x1.Idx) (i : S40000x1.Idx)
    (h0 : (i 0).val = t.val * 4000 + (x 0).val) (h1 : (i 1).val = (x 1).val) :
    (iblk0 V c 1 t : Vec Ideal S4000x1 .f32) x = (V c main_v14 : S40000x1.Idx → EReal) i := by
  obtain ⟨-, -, e0, e1, -⟩ := idx_facts t
  unfold iblk0
  rw [View.read_apply]
  show V c main_v14 _ = V c main_v14 _
  refine congrArg _ ?_
  funext a; apply Fin.ext
  match a with
  | ⟨0, _⟩ => show win0_1.index t (0 : Fin 2) * 4000 + 1 * (x 0).val = (i 0).val; rw [e0, h0]; omega
  | ⟨1, _⟩ => show win0_1.index t (1 : Fin 2) * 1 + 1 * (x 1).val = (i 1).val; rw [e1, h1]; omega

/-- Point t's block of the nodes' own features is rows 4000·t … 4000·t + 3999 of the feature array. -/
theorem blk_feats (t : Fin cfg0.N) (x : S4000x256.Idx) (i : S200000x256.Idx)
    (h0 : (i 0).val = t.val * 4000 + (x 0).val) (h1 : (i 1).val = (x 1).val) :
    (iblk0 V c 2 t : Vec Ideal S4000x256 .f32) x = (V c main_arg0 : S200000x256.Idx → EReal) i := by
  obtain ⟨-, -, -, -, e0, e1, -⟩ := idx_facts t
  unfold iblk0
  rw [View.read_apply]
  show V c main_arg0 _ = V c main_arg0 _
  refine congrArg _ ?_
  funext a; apply Fin.ext
  match a with
  | ⟨0, _⟩ => show win0_2.index t (0 : Fin 2) * 4000 + 1 * (x 0).val = (i 0).val; rw [e0, h0]; omega
  | ⟨1, _⟩ => show win0_2.index t (1 : Fin 2) * 256 + 1 * (x 1).val = (i 1).val; rw [e1, h1]; omega

/-- Every point's block of the first weight matrix is the whole matrix. -/
theorem blk_wl (t : Fin cfg0.N) (x i : S256x256.Idx) (h0 : (i 0).val = (x 0).val) (h1 : (i 1).val = (x 1).val) :
    (iblk0 V c 3 t : Vec Ideal S256x256 .f32) x = (V c main_arg5 : S256x256.Idx → EReal) i := by
  obtain ⟨-, -, -, -, -, -, e0, e1, -⟩ := idx_facts t
  unfold iblk0
  rw [View.read_apply]
  show V c main_arg5 _ = V c main_arg5 _
  refine congrArg _ ?_
  funext a; apply Fin.ext
  match a with
  | ⟨0, _⟩ => show win0_3.index t (0 : Fin 2) * 256 + 1 * (x 0).val = (i 0).val; rw [e0, h0]; omega
  | ⟨1, _⟩ => show win0_3.index t (1 : Fin 2) * 256 + 1 * (x 1).val = (i 1).val; rw [e1, h1]; omega

/-- Every point's block of the bias row is the whole row. -/
theorem blk_bias (t : Fin cfg0.N) (x i : S1x256.Idx) (h0 : (i 0).val = (x 0).val) (h1 : (i 1).val = (x 1).val) :
    (iblk0 V c 4 t : Vec Ideal S1x256 .f32) x = (V c main_v15 : S1x256.Idx → EReal) i := by
  obtain ⟨-, -, -, -, -, -, -, -, e0, e1, -⟩ := idx_facts t
  unfold iblk0
  rw [View.read_apply]
  show V c main_v15 _ = V c main_v15 _
  refine congrArg _ ?_
  funext a; apply Fin.ext
  match a with
  | ⟨0, _⟩ => show win0_4.index t (0 : Fin 2) * 1 + 1 * (x 0).val = (i 0).val; rw [e0, h0]; omega
  | ⟨1, _⟩ => show win0_4.index t (1 : Fin 2) * 256 + 1 * (x 1).val = (i 1).val; rw [e1, h1]; omega

/-- Every point's block of the second weight matrix is the whole matrix. -/
theorem blk_wr (t : Fin cfg0.N) (x i : S256x256.Idx) (h0 : (i 0).val = (x 0).val) (h1 : (i 1).val = (x 1).val) :
    (iblk0 V c 5 t : Vec Ideal S256x256 .f32) x = (V c main_arg7 : S256x256.Idx → EReal) i := by
  obtain ⟨-, -, -, -, -, -, -, -, -, -, e0, e1, -⟩ := idx_facts t
  unfold iblk0
  rw [View.read_apply]
  show V c main_arg7 _ = V c main_arg7 _
  refine congrArg _ ?_
  funext a; apply Fin.ext
  match a with
  | ⟨0, _⟩ => show win0_5.index t (0 : Fin 2) * 256 + 1 * (x 0).val = (i 0).val; rw [e0, h0]; omega
  | ⟨1, _⟩ => show win0_5.index t (1 : Fin 2) * 256 + 1 * (x 1).val = (i 1).val; rw [e1, h1]; omega

/-! ## What a point writes back, and the cover -/

/-- WHAT POINT t WRITES BACK is block t of the layer of the whole arrays. -/
theorem flushed_eq (t : Fin cfg0.N) :
    (dat0 (F := Ideal) V c).flushed 6 t = ((cfg0.win 6).blk t).view.read (Elt Ideal)
      (linRelu (A := 40000) (K := 256) (B := 256) (V c main_v9) (V c main_v14) (topRows (A := 40000) (by norm_num) (V c main_arg0)) (V c main_arg5) (V c main_v15) (V c main_arg7)) := by
  show (cfg0.win 6).cut (grid0.coords t) ((dat0 V c).after 6 t) = _
  rw [after0_6]
  unfold out0_6
  rw [View.canon_unit_zero hz]
  simp only [View.ld_unit_zero (S := S4000x256) hz, View.ld_unit_zero (S := S4000x1) hz,
    View.ld_unit_zero (S := S256x256) hz, View.ld_unit_zero (S := S1x256) hz]
  rw [Body.pay0_eq]
  obtain ⟨-, -, -, -, -, -, -, -, -, -, -, -, e0, e1, -⟩ := idx_facts t
  funext y
  have j0 : ((((cfg0.win 6).blk t).view.emb y : S40000x256.Idx) 0).val = t.val * 4000 + (y 0).val := by
    show win0_6.index t (0 : Fin 2) * 4000 + 1 * (y 0).val = _
    rw [e0]; omega
  have j1 : ((((cfg0.win 6).blk t).view.emb y : S40000x256.Idx) 1).val = (y 1).val := by
    show win0_6.index t (1 : Fin 2) * 256 + 1 * (y 1).val = _
    rw [e1]; omega
  show linRelu (iblk0 V c 0 t : Vec Ideal S4000x256 .f32) (iblk0 V c 1 t : Vec Ideal S4000x1 .f32)
      (iblk0 V c 2 t : Vec Ideal S4000x256 .f32) (iblk0 V c 3 t : Vec Ideal S256x256 .f32)
      (iblk0 V c 4 t : Vec Ideal S1x256 .f32) (iblk0 V c 5 t : Vec Ideal S256x256 .f32) (y : S4000x256.Idx)
    = linRelu (A := 40000) (K := 256) (B := 256) (V c main_v9) (V c main_v14) (topRows (A := 40000) (by norm_num) (V c main_arg0))
        (V c main_arg5) (V c main_v15) (V c main_arg7) (((cfg0.win 6).blk t).view.emb y : S40000x256.Idx)
  refine linRelu_congr _ _ _ _ _ _ _ _ _ _ _ _ _ _ (fun k => ?_) ?_ (fun k => ?_) (fun k => ?_) ?_ (fun k => ?_)
  · exact blk_sums V c t _ _ j0 rfl
  · exact blk_counts V c t _ _ j0 rfl
  · exact blk_feats V c t _ _ j0 rfl
  · exact blk_wl V c t _ _ rfl j1
  · exact blk_bias V c t _ _ rfl j1
  · exact blk_wr V c t _ _ rfl j1

/-- An index of the output array is in point t's block iff each coordinate is in the block's range on its axis. -/
theorem mem_blk (t : Fin cfg0.N) (i : S40000x256.Idx) :
    i ∈ ((cfg0.win 6).blk t).view.set ↔ ∀ a : Fin 2, win0_6.index t a * S4000x256.size a ≤ (i a).val
      ∧ (i a).val < win0_6.index t a * S4000x256.size a + S4000x256.size a := by
  show i ∈ ((View.whole main_v16).slice (win0_6.rect t)).set ↔ _
  rw [View.set_slice_whole, Rect.mem_set_unit]
  exact Iff.rfl

/-- THE BLOCKS TILE THE ARRAY: row r lies in the block of point r / 4000. -/
theorem cover (i : S40000x256.Idx) :
    ∃ t : Fin cfg0.N, (cfg0.win 6).flush t = true ∧ i ∈ ((cfg0.win 6).blk t).view.set := by
  have hi0 : (i 0).val < 40000 := (i 0).isLt
  have hi1 : (i 1).val < 256 := (i 1).isLt
  obtain ⟨t, ht⟩ : ∃ t : Fin cfg0.N, t.val = (i 0).val / 4000 :=
    ⟨⟨(i 0).val / 4000, by rw [show cfg0.N = 10 from N_0]; omega⟩, rfl⟩
  obtain ⟨-, -, -, -, -, -, -, -, -, -, -, -, e0, e1, -⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 256 ≤ (i 1).val ∧ (i 1).val < win0_6.index t (1 : Fin 2) * 256 + 256
    rw [e1]; omega

end Reads

/-- After the call its output array holds the layer, cut off below at zero, of the arrays it found. -/
theorem final0 (V : (c : Dev nD) → (b : Ref sig .tc) → Buf (Elt Ideal) ((c : Thread nD τ).loc b)) (c : Dev nD) :
    (dat0 (F := Ideal) V c).arrAt 6 cfg0.N
      = linRelu (A := 40000) (K := 256) (B := 256) (V c main_v9) (V c main_v14) (topRows (A := 40000) (by norm_num) (V c main_arg0)) (V c main_arg5) (V c main_v15) (V c main_arg7) :=
  (dat0 (F := Ideal) V c).arrAt_eq_of_cover 6 _ (fun t _ => flushed_eq V c t) cover

end Cert.KernelIdeal.Region0

end
-- ==== Proof.Region1.lean ====
/-
  What the second call leaves in its output array: every grid point writes back its block of ONE function of the
  arrays the call finds, the layer of whole arrays; the blocks tile the array.

  An entry (r, c) of the layer reads only row r of the neighbour sums, of the counts and of the nodes' own features,
  column c of the two weight matrices and of the bias row. Point t works on rows 2000·t … 2000·t + 1999 and on whole
  weight matrices and bias row, so its block of the layer of blocks is the same block of the layer of arrays.
-/
import proofs.«110619_j42812234006571_2_alg».proof.Proof.Gen.KernelIdeal.Frame
import proofs.«110619_j42812234006571_2_alg».proof.Proof.Payload

noncomputable section

namespace Cert.KernelIdeal.Region1

open Idealize.ShloMosaic Idealize.ShloMosaic.TcCoe Idealize.SL.Sem Cert.KernelIdeal Cert.KernelIdeal.Gen Cert.SageLin
open Idealize.ShloMosaic.ValueIdx Cert.RowOps

/-- The zero offsets, however spelt. -/
theorem hz : (![0, 0] : Fin 2 → Nat) = fun _ => 0 := funext fun a => by fin_cases a <;> rfl

/-! ## An entry of the layer reads one row and one column -/

/-- The two products at an entry are determined by the entry's row of the sums, of the counts and of the features, and
    by the entry's column of the two weight matrices. -/
theorem twoProducts_congr {a A K B : ℕ}
    (g' : (⟨2, ![a, K]⟩ : Shape).Idx → EReal) (n' : (⟨2, ![a, 1]⟩ : Shape).Idx → EReal)
    (x' : (⟨2, ![a, K]⟩ : Shape).Idx → EReal) (wl' wr' : (⟨2, ![K, B]⟩ : Shape).Idx → EReal)
    (g : (⟨2, ![A, K]⟩ : Shape).Idx → EReal) (n : (⟨2, ![A, 1]⟩ : Shape).Idx → EReal)
    (x : (⟨2, ![A, K]⟩ : Shape).Idx → EReal) (wl wr : (⟨2, ![K, B]⟩ : Shape).Idx → EReal)
    (y : (⟨2, ![a, B]⟩ : Shape).Idx) (i : (⟨2, ![A, B]⟩ : Shape).Idx)
    (hg : ∀ k : Fin K, g' (ix2 (⟨(y 0).val, idx2_lt0 y⟩ : Fin a) k) = g (ix2 (⟨(i 0).val, idx2_lt0 i⟩ : Fin A) k))
    (hn : n' (col0 y) = n (col0 i))
    (hx : ∀ k : Fin K, x' (ix2 (⟨(y 0).val, idx2_lt0 y⟩ : Fin a) k) = x (ix2 (⟨(i 0).val, idx2_lt0 i⟩ : Fin A) k))
    (hwl : ∀ k : Fin K, wl' (ix2 k (⟨(y 1).val, idx2_lt1 y⟩ : Fin B)) = wl (ix2 k (⟨(i 1).val, idx2_lt1 i⟩ : Fin B)))
    (hwr : ∀ k : Fin K, wr' (ix2 k (⟨(y 1).val, idx2_lt1 y⟩ : Fin B)) = wr (ix2 k (⟨(i 1).val, idx2_lt1 i⟩ : Fin B))) :
    twoProducts g' n' x' wl' wr' y = twoProducts g n x wl wr i := by
  show (∑ k : Fin K, meanRows g' n' (ix2 (⟨(y 0).val, idx2_lt0 y⟩ : Fin a) k) * wl' (ix2 k (⟨(y 1).val, idx2_lt1 y⟩ : Fin B)))
        + (∑ k : Fin K, x' (ix2 (⟨(y 0).val, idx2_lt0 y⟩ : Fin a) k) * wr' (ix2 k (⟨(y 1).val, idx2_lt1 y⟩ : Fin B)))
      = (∑ k : Fin K, meanRows g n (ix2 (⟨(i 0).val, idx2_lt0 i⟩ : Fin A) k) * wl (ix2 k (⟨(i 1).val, idx2_lt1 i⟩ : Fin B)))
        + (∑ k : Fin K, x (ix2 (⟨(i 0).val, idx2_lt0 i⟩ : Fin A) k) * wr (ix2 k (⟨(i 1).val, idx2_lt1 i⟩ : Fin B)))
  have e1 : ∀ k : Fin K, meanRows g' n' (ix2 (⟨(y 0).val, idx2_lt0 y⟩ : Fin a) k)
      = meanRows g n (ix2 (⟨(i 0).val, idx2_lt0 i⟩ : Fin A) k) := fun k => by
    show Ideal.div (g' (ix2 (⟨(y 0).val, idx2_lt0 y⟩ : Fin a) k)) (max (n' (col0 y)) _)
      = Ideal.div (g (ix2 (⟨(i 0).val, idx2_lt0 i⟩ : Fin A) k)) (max (n (col0 i)) _)
    rw [hg k, hn]
  refine congrArg₂ (· + ·) (Finset.sum_congr rfl fun k _ => ?_) (Finset.sum_congr rfl fun k _ => ?_)
  · rw [e1 k, hwl k]
  · rw [hx k, hwr k]

/-- So is the layer, with the entry's column of the bias row. -/
theorem lin_congr {a A K B : ℕ}
    (g' : (⟨2, ![a, K]⟩ : Shape).Idx → EReal) (n' : (⟨2, ![a, 1]⟩ : Shape).Idx → EReal)
    (x' : (⟨2, ![a, K]⟩ : Shape).Idx → EReal) (wl' : (⟨2, ![K, B]⟩ : Shape).Idx → EReal)
    (b' : (⟨2, ![1, B]⟩ : Shape).Idx → EReal) (wr' : (⟨2, ![K, B]⟩ : Shape).Idx → EReal)
    (g : (⟨2, ![A, K]⟩ : Shape).Idx → EReal) (n : (⟨2, ![A, 1]⟩ : Shape).Idx → EReal)
    (x : (⟨2, ![A, K]⟩ : Shape).Idx → EReal) (wl : (⟨2, ![K, B]⟩ : Shape).Idx → EReal)
    (b : (⟨2, ![1, B]⟩ : Shape).Idx → EReal) (wr : (⟨2, ![K, B]⟩ : Shape).Idx → EReal)
    (y : (⟨2, ![a, B]⟩ : Shape).Idx) (i : (⟨2, ![A, B]⟩ : Shape).Idx)
    (hg : ∀ k : Fin K, g' (ix2 (⟨(y 0).val, idx2_lt0 y⟩ : Fin a) k) = g (ix2 (⟨(i 0).val, idx2_lt0 i⟩ : Fin A) k))
    (hn : n' (col0 y) = n (col0 i))
    (hx : ∀ k : Fin K, x' (ix2 (⟨(y 0).val, idx2_lt0 y⟩ : Fin a) k) = x (ix2 (⟨(i 0).val, idx2_lt0 i⟩ : Fin A) k))
    (hwl : ∀ k : Fin K, wl' (ix2 k (⟨(y 1).val, idx2_lt1 y⟩ : Fin B)) = wl (ix2 k (⟨(i 1).val, idx2_lt1 i⟩ : Fin B)))
    (hb : b' (row0 y) = b (row0 i))
    (hwr : ∀ k : Fin K, wr' (ix2 k (⟨(y 1).val, idx2_lt1 y⟩ : Fin B)) = wr (ix2 k (⟨(i 1).val, idx2_lt1 i⟩ : Fin B))) :
    lin g' n' x' wl' b' wr' y = lin g n x wl b wr i := by
  show twoProducts g' n' x' wl' wr' y + b' (row0 y) = twoProducts g n x wl wr i + b (row0 i)
  rw [twoProducts_congr g' n' x' wl' wr' g n x wl wr y i hg hn hx hwl hwr, hb]

/-! ## The index maps over the grid -/

/-- The printed index maps, decided over the five grid points: the three row-blocked inputs and the output take block
    (t, 0) at point t, the two weight matrices and the bias row block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 5 :=
  (by decide +kernel : ∀ t : Fin grid1.N, _)

/-! ## Each input block, read off its array -/

section Reads

variable (V : (c : Dev nD) → (b : Ref sig .tc) → Buf (Elt Ideal) ((c : Thread nD τ).loc b)) (c : Dev nD)

/-- Point t's block of the neighbour sums is rows 2000·t … 2000·t + 1999 of the array. -/
theorem blk_sums (t : Fin cfg1.N) (x : S2000x256.Idx) (i : S10000x256.Idx)
    (h0 : (i 0).val = t.val * 2000 + (x 0).val) (h1 : (i 1).val = (x 1).val) :
    (iblk1 V c 0 t : Vec Ideal S2000x256 .f32) x = (V c main_v26 : S10000x256.Idx → EReal) i := by
  obtain ⟨e0, e1, -⟩ := idx_facts t
  unfold iblk1
  rw [View.read_apply]
  show V c main_v26 _ = V c main_v26 _
  refine congrArg _ ?_
  funext a; apply Fin.ext
  match a with
  | ⟨0, _⟩ => show win1_0.index t (0 : Fin 2) * 2000 + 1 * (x 0).val = (i 0).val; rw [e0, h0]; omega
  | ⟨1, _⟩ => show win1_0.index t (1 : Fin 2) * 256 + 1 * (x 1).val = (i 1).val; rw [e1, h1]; omega

/-- Point t's block of the neighbour counts is rows 2000·t … 2000·t + 1999 of the column. -/
theorem blk_counts (t : Fin cfg1.N) (x : S2000x1.Idx) (i : S10000x1.Idx)
    (h0 : (i 0).val = t.val * 2000 + (x 0).val) (h1 : (i 1).val = (x 1).val) :
    (iblk1 V c 1 t : Vec Ideal S2000x1 .f32) x = (V c main_v31 : S10000x1.Idx → EReal) i := by
  obtain ⟨-, -, e0, e1, -⟩ := idx_facts t
  unfold iblk1
  rw [View.read_apply]
  show V c main_v31 _ = V c main_v31 _
  refine congrArg _ ?_
  funext a; apply Fin.ext
  match a with
  | ⟨0, _⟩ => show win1_1.index t (0 : Fin 2) * 2000 + 1 * (x 0).val = (i 0).val; rw [e0, h0]; omega
  | ⟨1, _⟩ => show win1_1.index t (1 : Fin 2) * 1 + 1 * (x 1).val = (i 1).val; rw [e1, h1]; omega

/-- Point t's block of the nodes' own features is rows 2000·t … 2000·t + 1999 of the feature array. -/
theorem blk_feats (t : Fin cfg1.N) (x : S2000x256.Idx) (i : S40000x256.Idx)
    (h0 : (i 0).val = t.val * 2000 + (x 0).val) (h1 : (i 1).val = (x 1).val) :
    (iblk1 V c 2 t : Vec Ideal S2000x256 .f32) x = (V c main_v16 : S40000x256.Idx → EReal) i := by
  obtain ⟨-, -, -, -, e0, e1, -⟩ := idx_facts t
  unfold iblk1
  rw [View.read_apply]
  show V c main_v16 _ = V c main_v16 _
  refine congrArg _ ?_
  funext a; apply Fin.ext
  match a with
  | ⟨0, _⟩ => show win1_2.index t (0 : Fin 2) * 2000 + 1 * (x 0).val = (i 0).val; rw [e0, h0]; omega
  | ⟨1, _⟩ => show win1_2.index t (1 : Fin 2) * 256 + 1 * (x 1).val = (i 1).val; rw [e1, h1]; omega

/-- Every point's block of the first weight matrix is the whole matrix. -/
theorem blk_wl (t : Fin cfg1.N) (x i : S256x256.Idx) (h0 : (i 0).val = (x 0).val) (h1 : (i 1).val = (x 1).val) :
    (iblk1 V c 3 t : Vec Ideal S256x256 .f32) x = (V c main_arg8 : S256x256.Idx → EReal) i := by
  obtain ⟨-, -, -, -, -, -, e0, e1, -⟩ := idx_facts t
  unfold iblk1
  rw [View.read_apply]
  show V c main_arg8 _ = V c main_arg8 _
  refine congrArg _ ?_
  funext a; apply Fin.ext
  match a with
  | ⟨0, _⟩ => show win1_3.index t (0 : Fin 2) * 256 + 1 * (x 0).val = (i 0).val; rw [e0, h0]; omega
  | ⟨1, _⟩ => show win1_3.index t (1 : Fin 2) * 256 + 1 * (x 1).val = (i 1).val; rw [e1, h1]; omega

/-- Every point's block of the bias row is the whole row. -/
theorem blk_bias (t : Fin cfg1.N) (x i : S1x256.Idx) (h0 : (i 0).val = (x 0).val) (h1 : (i 1).val = (x 1).val) :
    (iblk1 V c 4 t : Vec Ideal S1x256 .f32) x = (V c main_v32 : S1x256.Idx → EReal) i := by
  obtain ⟨-, -, -, -, -, -, -, -, e0, e1, -⟩ := idx_facts t
  unfold iblk1
  rw [View.read_apply]
  show V c main_v32 _ = V c main_v32 _
  refine congrArg _ ?_
  funext a; apply Fin.ext
  match a with
  | ⟨0, _⟩ => show win1_4.index t (0 : Fin 2) * 1 + 1 * (x 0).val = (i 0).val; rw [e0, h0]; omega
  | ⟨1, _⟩ => show win1_4.index t (1 : Fin 2) * 256 + 1 * (x 1).val = (i 1).val; rw [e1, h1]; omega

/-- Every point's block of the second weight matrix is the whole matrix. -/
theorem blk_wr (t : Fin cfg1.N) (x i : S256x256.Idx) (h0 : (i 0).val = (x 0).val) (h1 : (i 1).val = (x 1).val) :
    (iblk1 V c 5 t : Vec Ideal S256x256 .f32) x = (V c main_arg10 : S256x256.Idx → EReal) i := by
  obtain ⟨-, -, -, -, -, -, -, -, -, -, e0, e1, -⟩ := idx_facts t
  unfold iblk1
  rw [View.read_apply]
  show V c main_arg10 _ = V c main_arg10 _
  refine congrArg _ ?_
  funext a; apply Fin.ext
  match a with
  | ⟨0, _⟩ => show win1_5.index t (0 : Fin 2) * 256 + 1 * (x 0).val = (i 0).val; rw [e0, h0]; omega
  | ⟨1, _⟩ => show win1_5.index t (1 : Fin 2) * 256 + 1 * (x 1).val = (i 1).val; rw [e1, h1]; omega

/-! ## What a point writes back, and the cover -/

/-- WHAT POINT t WRITES BACK is block t of the layer of the whole arrays. -/
theorem flushed_eq (t : Fin cfg1.N) :
    (dat1 (F := Ideal) V c).flushed 6 t = ((cfg1.win 6).blk t).view.read (Elt Ideal)
      (lin (A := 10000) (K := 256) (B := 256) (V c main_v26) (V c main_v31) (topRows (A := 10000) (by norm_num) (V c main_v16)) (V c main_arg8) (V c main_v32) (V c main_arg10)) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz,
    View.ld_unit_zero (S := S256x256) hz, View.ld_unit_zero (S := S1x256) hz]
  rw [Body.pay1_eq]
  obtain ⟨-, -, -, -, -, -, -, -, -, -, -, -, e0, e1, -⟩ := idx_facts t
  funext y
  have j0 : ((((cfg1.win 6).blk t).view.emb y : S10000x256.Idx) 0).val = t.val * 2000 + (y 0).val := by
    show win1_6.index t (0 : Fin 2) * 2000 + 1 * (y 0).val = _
    rw [e0]; omega
  have j1 : ((((cfg1.win 6).blk t).view.emb y : S10000x256.Idx) 1).val = (y 1).val := by
    show win1_6.index t (1 : Fin 2) * 256 + 1 * (y 1).val = _
    rw [e1]; omega
  show lin (iblk1 V c 0 t : Vec Ideal S2000x256 .f32) (iblk1 V c 1 t : Vec Ideal S2000x1 .f32)
      (iblk1 V c 2 t : Vec Ideal S2000x256 .f32) (iblk1 V c 3 t : Vec Ideal S256x256 .f32)
      (iblk1 V c 4 t : Vec Ideal S1x256 .f32) (iblk1 V c 5 t : Vec Ideal S256x256 .f32) (y : S2000x256.Idx)
    = lin (A := 10000) (K := 256) (B := 256) (V c main_v26) (V c main_v31) (topRows (A := 10000) (by norm_num) (V c main_v16))
        (V c main_arg8) (V c main_v32) (V c main_arg10) (((cfg1.win 6).blk t).view.emb y : S10000x256.Idx)
  refine lin_congr _ _ _ _ _ _ _ _ _ _ _ _ _ _ (fun k => ?_) ?_ (fun k => ?_) (fun k => ?_) ?_ (fun k => ?_)
  · exact blk_sums V c t _ _ j0 rfl
  · exact blk_counts V c t _ _ j0 rfl
  · exact blk_feats V c t _ _ j0 rfl
  · exact blk_wl V c t _ _ rfl j1
  · exact blk_bias V c t _ _ rfl j1
  · exact blk_wr V c t _ _ rfl j1

/-- An index of the output array is in point t's block iff each coordinate is in the block's range on its axis. -/
theorem mem_blk (t : Fin cfg1.N) (i : S10000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v33).slice (win1_6.rect t)).set ↔ _
  rw [View.set_slice_whole, Rect.mem_set_unit]
  exact Iff.rfl

/-- THE BLOCKS TILE THE ARRAY: row r lies in the block of point r / 2000. -/
theorem cover (i : S10000x256.Idx) :
    ∃ t : Fin cfg1.N, (cfg1.win 6).flush t = true ∧ i ∈ ((cfg1.win 6).blk t).view.set := by
  have hi0 : (i 0).val < 10000 := (i 0).isLt
  have hi1 : (i 1).val < 256 := (i 1).isLt
  obtain ⟨t, ht⟩ : ∃ t : Fin cfg1.N, t.val = (i 0).val / 2000 :=
    ⟨⟨(i 0).val / 2000, by rw [show cfg1.N = 5 from N_1]; omega⟩, rfl⟩
  obtain ⟨-, -, -, -, -, -, -, -, -, -, -, -, e0, e1, -⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 256 ≤ (i 1).val ∧ (i 1).val < win1_6.index t (1 : Fin 2) * 256 + 256
    rw [e1]; omega

end Reads

/-- After the call its output array holds the layer of the arrays it found. -/
theorem final1 (V : (c : Dev nD) → (b : Ref sig .tc) → Buf (Elt Ideal) ((c : Thread nD τ).loc b)) (c : Dev nD) :
    (dat1 (F := Ideal) V c).arrAt 6 cfg1.N
      = lin (A := 10000) (K := 256) (B := 256) (V c main_v26) (V c main_v31) (topRows (A := 10000) (by norm_num) (V c main_v16)) (V c main_arg8) (V c main_v32) (V c main_arg10) :=
  (dat1 (F := Ideal) V c).arrAt_eq_of_cover 6 _ (fun t _ => flushed_eq V c t) cover

end Cert.KernelIdeal.Region1

end
-- ==== Proof.KernelFold.lean ====
/-
  The kernel program's result array, read back through the program: the second call's output is the layer of the arrays
  that call found, which the host operations before it computed from the first call's output and the arguments; the
  first call's output is the layer, cut off below at zero, of the arrays the host operations before IT computed from the
  arguments. Composed: the result is `Terms.output` of the eleven argument arrays.
-/
import proofs.«110619_j42812234006571_2_alg».proof.Proof.Gen.KernelIdeal.Frame
import proofs.«110619_j42812234006571_2_alg».proof.Proof.Terms
import proofs.«110619_j42812234006571_2_alg».proof.Proof.Region0
import proofs.«110619_j42812234006571_2_alg».proof.Proof.Region1
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Facts₀ Cert.KernelIdeal.Facts Cert.KernelIdeal.Gen Cert.KernelIdeal.Terms Cert.SageLin

/-! ## The host operations before each call, from ANY contents `W` -/

section Ops
variable (W : Valuation τ sig (Elt Ideal))

/-- Before the first call: the neighbour sums, from the features, the sources and the targets. -/
theorem ops0_v9 : StableHlo.after (hostOps0 (F := Ideal)) W (Proc.devRef .tc main_v9)
    = nbrSum0 (W (Proc.devRef .tc main_arg0)) (W (Proc.devRef .tc main_arg1)) (W (Proc.devRef .tc main_arg2)) := by
  after_results
  rfl

/-- Before the first call: the neighbour counts as a column. -/
theorem ops0_v14 : StableHlo.after (hostOps0 (F := Ideal)) W (Proc.devRef .tc main_v14)
    = shapeCast S40000x1 (nbrCount0 (W (Proc.devRef .tc main_arg2))) Facts₀.shapeCasts_S40000_S40000x1 := by
  after_results
  rfl

/-- Before the first call: the bias as a row. -/
theorem ops0_v15 : StableHlo.after (hostOps0 (F := Ideal)) W (Proc.devRef .tc main_v15)
    = shapeCast S1x256 (W (Proc.devRef .tc main_arg6)) Facts₀.shapeCasts_S256_S1x256 := by
  after_results
  rfl

/-- No host operation writes an argument. -/
theorem ops0_arg0 : StableHlo.after (hostOps0 (F := Ideal)) W (Proc.devRef .tc main_arg0) = W (Proc.devRef .tc main_arg0) := by
  after_results
theorem ops0_arg1 : StableHlo.after (hostOps0 (F := Ideal)) W (Proc.devRef .tc main_arg1) = W (Proc.devRef .tc main_arg1) := by
  after_results
theorem ops0_arg2 : StableHlo.after (hostOps0 (F := Ideal)) W (Proc.devRef .tc main_arg2) = W (Proc.devRef .tc main_arg2) := by
  after_results
theorem ops0_arg3 : StableHlo.after (hostOps0 (F := Ideal)) W (Proc.devRef .tc main_arg3) = W (Proc.devRef .tc main_arg3) := by
  after_results
theorem ops0_arg4 : StableHlo.after (hostOps0 (F := Ideal)) W (Proc.devRef .tc main_arg4) = W (Proc.devRef .tc main_arg4) := by
  after_results
theorem ops0_arg5 : StableHlo.after (hostOps0 (F := Ideal)) W (Proc.devRef .tc main_arg5) = W (Proc.devRef .tc main_arg5) := by
  after_results
theorem ops0_arg6 : StableHlo.after (hostOps0 (F := Ideal)) W (Proc.devRef .tc main_arg6) = W (Proc.devRef .tc main_arg6) := by
  after_results
theorem ops0_arg7 : StableHlo.after (hostOps0 (F := Ideal)) W (Proc.devRef .tc main_arg7) = W (Proc.devRef .tc main_arg7) := by
  after_results
theorem ops0_arg8 : StableHlo.after (hostOps0 (F := Ideal)) W (Proc.devRef .tc main_arg8) = W (Proc.devRef .tc main_arg8) := by
  after_results
theorem ops0_arg9 : StableHlo.after (hostOps0 (F := Ideal)) W (Proc.devRef .tc main_arg9) = W (Proc.devRef .tc main_arg9) := by
  after_results
theorem ops0_arg10 : StableHlo.after (hostOps0 (F := Ideal)) W (Proc.devRef .tc main_arg10) = W (Proc.devRef .tc main_arg10) := by
  after_results

/-- Before the second call: the neighbour sums, from the hidden rows, the sources and the targets. -/
theorem ops1_v26 : StableHlo.after (hostOps1 (F := Ideal)) W (Proc.devRef .tc main_v26)
    = nbrSum1 (W (Proc.devRef .tc main_v16)) (W (Proc.devRef .tc main_arg3)) (W (Proc.devRef .tc main_arg4)) := by
  after_results
  rfl

/-- Before the second call: the neighbour counts as a column. -/
theorem ops1_v31 : StableHlo.after (hostOps1 (F := Ideal)) W (Proc.devRef .tc main_v31)
    = shapeCast S10000x1 (nbrCount1 (W (Proc.devRef .tc main_arg4))) Facts₀.shapeCasts_S10000_S10000x1 := by
  after_results
  rfl

/-- Before the second call: the bias as a row. -/
theorem ops1_v32 : StableHlo.after (hostOps1 (F := Ideal)) W (Proc.devRef .tc main_v32)
    = shapeCast S1x256 (W (Proc.devRef .tc main_arg9)) Facts₀.shapeCasts_S256_S1x256 := by
  after_results
  rfl

/-- The host operations before the second call leave the hidden rows as the first call wrote them. -/
theorem ops1_v16 : StableHlo.after (hostOps1 (F := Ideal)) W (Proc.devRef .tc main_v16) = W (Proc.devRef .tc main_v16) := by
  after_results

theorem ops1_arg3 : StableHlo.after (hostOps1 (F := Ideal)) W (Proc.devRef .tc main_arg3) = W (Proc.devRef .tc main_arg3) := by
  after_results
theorem ops1_arg4 : StableHlo.after (hostOps1 (F := Ideal)) W (Proc.devRef .tc main_arg4) = W (Proc.devRef .tc main_arg4) := by
  after_results
theorem ops1_arg8 : StableHlo.after (hostOps1 (F := Ideal)) W (Proc.devRef .tc main_arg8) = W (Proc.devRef .tc main_arg8) := by
  after_results
theorem ops1_arg9 : StableHlo.after (hostOps1 (F := Ideal)) W (Proc.devRef .tc main_arg9) = W (Proc.devRef .tc main_arg9) := by
  after_results
theorem ops1_arg10 : StableHlo.after (hostOps1 (F := Ideal)) W (Proc.devRef .tc main_arg10) = W (Proc.devRef .tc main_arg10) := by
  after_results

end Ops

/-! ## The fold through the program -/

variable (m : (ℓ : Loc nD τ sig) → Buf (Elt Ideal) ℓ) (ρ : Dev nD → PrngReg)

/-- An argument the first call has no window on keeps its launch contents through the first call. -/
theorem W2_arg3 (c : Dev nD) : W2 m ρ c (Proc.devRef .tc main_arg3) = m ((c.tc : Thread nD τ).loc main_arg3) :=
  (W2_of_ne m ρ c main_arg3 (by decide)).trans (ops0_arg3 (W0 m ρ c))
theorem W2_arg4 (c : Dev nD) : W2 m ρ c (Proc.devRef .tc main_arg4) = m ((c.tc : Thread nD τ).loc main_arg4) :=
  (W2_of_ne m ρ c main_arg4 (by decide)).trans (ops0_arg4 (W0 m ρ c))
theorem W2_arg8 (c : Dev nD) : W2 m ρ c (Proc.devRef .tc main_arg8) = m ((c.tc : Thread nD τ).loc main_arg8) :=
  (W2_of_ne m ρ c main_arg8 (by decide)).trans (ops0_arg8 (W0 m ρ c))
theorem W2_arg9 (c : Dev nD) : W2 m ρ c (Proc.devRef .tc main_arg9) = m ((c.tc : Thread nD τ).loc main_arg9) :=
  (W2_of_ne m ρ c main_arg9 (by decide)).trans (ops0_arg9 (W0 m ρ c))
theorem W2_arg10 (c : Dev nD) : W2 m ρ c (Proc.devRef .tc main_arg10) = m ((c.tc : Thread nD τ).loc main_arg10) :=
  (W2_of_ne m ρ c main_arg10 (by decide)).trans (ops0_arg10 (W0 m ρ c))

/-- THE HIDDEN ROWS: after the first call its output array is the cut-off layer of the arguments. -/
theorem hidden_eq (c : Dev nD) : W2 m ρ c (Proc.devRef .tc main_v16)
    = hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  have e9 : V1 m ρ c main_v9 = nbrSum0 (m ((c.tc : Thread nD τ).loc main_arg0)) (m ((c.tc : Thread nD τ).loc main_arg1)) (m ((c.tc : Thread nD τ).loc main_arg2)) := ops0_v9 (W0 m ρ c)
  have e14 : V1 m ρ c main_v14 = shapeCast S40000x1 (nbrCount0 (m ((c.tc : Thread nD τ).loc main_arg2))) Facts₀.shapeCasts_S40000_S40000x1 := ops0_v14 (W0 m ρ c)
  have e15 : V1 m ρ c main_v15 = shapeCast S1x256 (m ((c.tc : Thread nD τ).loc main_arg6)) Facts₀.shapeCasts_S256_S1x256 := ops0_v15 (W0 m ρ c)
  have e0 : V1 m ρ c main_arg0 = (m ((c.tc : Thread nD τ).loc main_arg0)) := ops0_arg0 (W0 m ρ c)
  have e5 : V1 m ρ c main_arg5 = (m ((c.tc : Thread nD τ).loc main_arg5)) := ops0_arg5 (W0 m ρ c)
  have e7 : V1 m ρ c main_arg7 = (m ((c.tc : Thread nD τ).loc main_arg7)) := ops0_arg7 (W0 m ρ c)
  refine (W2_arr m ρ c 6).trans ((Cert.KernelIdeal.Region0.final0 (V1 m ρ) c).trans ?_)
  rw [e9, e14, e15, e0, e5, e7]
  rfl

/-- THE RESULT: after the second call its output array is the layer of the hidden rows. -/
theorem result_eq (c : Dev nD) : W4 m ρ c (Proc.devRef .tc main_v33)
    = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e26 : V3 m ρ c main_v26 = nbrSum1 (W2 m ρ c (Proc.devRef .tc main_v16)) (m ((c.tc : Thread nD τ).loc main_arg3)) (m ((c.tc : Thread nD τ).loc main_arg4)) :=
    (ops1_v26 (W2 m ρ c)).trans (by rw [W2_arg3, W2_arg4])
  have e31 : V3 m ρ c main_v31 = shapeCast S10000x1 (nbrCount1 (m ((c.tc : Thread nD τ).loc main_arg4))) Facts₀.shapeCasts_S10000_S10000x1 :=
    (ops1_v31 (W2 m ρ c)).trans (by rw [W2_arg4])
  have e32 : V3 m ρ c main_v32 = shapeCast S1x256 (m ((c.tc : Thread nD τ).loc main_arg9)) Facts₀.shapeCasts_S256_S1x256 :=
    (ops1_v32 (W2 m ρ c)).trans (by rw [W2_arg9])
  have e16 : V3 m ρ c main_v16 = W2 m ρ c (Proc.devRef .tc main_v16) := ops1_v16 (W2 m ρ c)
  have e8 : V3 m ρ c main_arg8 = (m ((c.tc : Thread nD τ).loc main_arg8)) := (ops1_arg8 (W2 m ρ c)).trans (W2_arg8 m ρ c)
  have e10 : V3 m ρ c main_arg10 = (m ((c.tc : Thread nD τ).loc main_arg10)) := (ops1_arg10 (W2 m ρ c)).trans (W2_arg10 m ρ c)
  refine (W4_arr m ρ c 6).trans ((Cert.KernelIdeal.Region1.final1 (V3 m ρ) c).trans ?_)
  rw [e26, e31, e32, e16, e8, e10, hidden_eq]
  rfl

end Cert.KernelIdeal.Fold

end
-- ==== Proof.RefLayer.lean ====
/-
  The reference's host form of each hop's layer is the layer function of whole arrays (the bias row added to the
  first product, the second product last), on extended reals.
-/
import proofs.«110619_j42812234006571_2_alg».proof.Proof.Gen.ReferenceIdeal
import proofs.«110619_j42812234006571_2_alg».proof.Proof.LibSageLin

noncomputable section

namespace Cert.ReferenceIdeal.Layer

open Idealize.ShloMosaic Cert.ReferenceIdeal Cert.ReferenceIdeal.Facts₀ Cert.SageLin

/-! ## Two whole-array forms, generic in the sizes -/

section Generic

open Idealize.ShloMosaic.ValueIdx Cert.RowOps

/-- The host's quotient of `g` by the count column raised to at least one — the counts `cnt` [A], their entrywise
    maximum with the constant one, broadcast along a new unit axis to [A, 1] and then over the columns to [A, B] — is
    `meanRows g` of the counts cast to a column: entry (r, c) is g(r, c) / max (cnt r) 1 on both sides. -/
theorem divf_countCol {A B : ℕ}
    (h2 : (⟨2, ![A, 1]⟩ : Shape).BroadcastsInDim ⟨2, ![A, B]⟩ ![0, 1])
    (h1 : (⟨1, ![A]⟩ : Shape).BroadcastsInDim ⟨2, ![A, 1]⟩ ![0])
    (h0 : (⟨0, ![]⟩ : Shape).BroadcastsInDim ⟨1, ![A]⟩ ![])
    (hc : (⟨1, ![A]⟩ : Shape).ShapeCasts ⟨2, ![A, 1]⟩)
    (g : FVec Ideal ⟨2, ![A, B]⟩ .f32) (cnt : FVec Ideal ⟨1, ![A]⟩ .f32) :
    Host.divf g (broadcastInDim ⟨2, ![A, B]⟩ ![0, 1] h2 (broadcastInDim ⟨2, ![A, 1]⟩ ![0] h1
        (maximumf (F := Ideal) cnt (broadcastInDim ⟨1, ![A]⟩ ![] h0 (constant (F := Ideal) ⟨0, ![]⟩ .f32 0x3F800000#32)))))
      = meanRows g (shapeCast ⟨2, ![A, 1]⟩ cnt hc) :=
  funext fun i => by
    show Ideal.div (g i) _
      = Ideal.div (g i) (max (shapeCast ⟨2, ![A, 1]⟩ cnt hc (col0 i)) (Ideal.ofBits .f32 0x3F800000#32))
    refine congrArg (Ideal.div (g i)) ?_
    -- both columns are read at the row of `i`, and a column [A, 1] at (r, 0) is the vector [A] at r
    have hrm : ((⟨1, ![A]⟩ : Shape).rowMajor (ix1 (⟨(i 0).val, idx2_lt0 i⟩ : Fin A))).val
        = ((⟨2, ![A, 1]⟩ : Shape).rowMajor (col0 i)).val := by
      rw [Shape.rowMajor_val_two, Shape.rowMajor_val_one]
      show (i 0).val = (i 0).val * 1 + 0
      rw [Nat.mul_one, Nat.add_zero]
    rw [bcastCol_apply, ← colCast_eq_bcast hc h1,
      shapeCast_apply _ hc (col0 i) (ix1 (⟨(i 0).val, idx2_lt0 i⟩ : Fin A)) hrm,
      shapeCast_apply cnt hc (col0 i) (ix1 (⟨(i 0).val, idx2_lt0 i⟩ : Fin A)) hrm]
    rfl

/-- The slice of a matrix of `M` rows at offsets (0, 0) to `A ≤ M` rows and all `K` columns is its first `A` rows. -/
theorem slice_eq_topRows {A M K : ℕ} (hle : A ≤ M) (h : (⟨2, ![M, K]⟩ : Shape).Slices ![0, 0] ⟨2, ![A, K]⟩)
    (x : (⟨2, ![M, K]⟩ : Shape).Idx → EReal) :
    extractStridedSlice ⟨2, ![A, K]⟩ ![0, 0] x h = topRows hle x :=
  funext fun j => by
    show extractStridedSlice ⟨2, ![A, K]⟩ ![0, 0] x h j
      = x (ix2 (⟨(j 0).val, lt_of_lt_of_le (idx2_lt0 j) hle⟩ : Fin M) (⟨(j 1).val, idx2_lt1 j⟩ : Fin K))
    exact extractStridedSlice_apply ![0, 0] x h j _ (fun a => match a with
      | ⟨0, _⟩ => by show (j 0).val = 0 + (j 0).val; rw [Nat.zero_add]
      | ⟨1, _⟩ => by show (j 1).val = 0 + (j 1).val; rw [Nat.zero_add])

/-- One layer in the order a host program writes it — the quotient by the raised count column, its product with `wl`, the
    bias `b` [B] broadcast to a row and over the rows and added, then the product of the sliced `x` with `wr` added — is
    `linRef` of the counts cast to a column, the first `A` rows of `x` and the bias cast to a row: for any dimension record
    whose index facts are those of the plain matrix product. -/
theorem hostLayer_eq_linRef {A M K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (h2 : (⟨2, ![A, 1]⟩ : Shape).BroadcastsInDim ⟨2, ![A, K]⟩ ![0, 1])
    (h1 : (⟨1, ![A]⟩ : Shape).BroadcastsInDim ⟨2, ![A, 1]⟩ ![0])
    (h0 : (⟨0, ![]⟩ : Shape).BroadcastsInDim ⟨1, ![A]⟩ ![])
    (hbr : (⟨2, ![1, B]⟩ : Shape).BroadcastsInDim ⟨2, ![A, B]⟩ ![0, 1])
    (hb1 : (⟨1, ![B]⟩ : Shape).BroadcastsInDim ⟨2, ![1, B]⟩ ![1])
    (hsl : (⟨2, ![M, K]⟩ : Shape).Slices ![0, 0] ⟨2, ![A, K]⟩)
    (hc : (⟨1, ![A]⟩ : Shape).ShapeCasts ⟨2, ![A, 1]⟩) (hb : (⟨1, ![B]⟩ : Shape).ShapeCasts ⟨2, ![1, B]⟩) (hle : A ≤ M)
    (agg : FVec Ideal ⟨2, ![A, K]⟩ .f32) (cnt : FVec Ideal ⟨1, ![A]⟩ .f32) (x : FVec Ideal ⟨2, ![M, K]⟩ .f32)
    (wl wr : FVec Ideal ⟨2, ![K, B]⟩ .f32) (b : FVec Ideal ⟨1, ![B]⟩ .f32) :
    addf (F := Ideal) (addf (Host.dotGeneral d none (Host.divf agg (broadcastInDim ⟨2, ![A, K]⟩ ![0, 1] h2
        (broadcastInDim ⟨2, ![A, 1]⟩ ![0] h1 (maximumf cnt (broadcastInDim ⟨1, ![A]⟩ ![] h0
          (constant ⟨0, ![]⟩ .f32 0x3F800000#32)))))) wl)
        (broadcastInDim ⟨2, ![A, B]⟩ ![0, 1] hbr (broadcastInDim ⟨2, ![1, B]⟩ ![1] hb1 b)))
        (Host.dotGeneral d none (extractStridedSlice ⟨2, ![A, K]⟩ ![0, 0] x hsl) wr)
      = linRef agg (shapeCast ⟨2, ![A, 1]⟩ cnt hc) (topRows hle x) wl (shapeCast ⟨2, ![1, B]⟩ b hb) wr := by
  simp only [Host.dotGeneral]
  rw [divf_countCol h2 h1 h0 hc, slice_eq_topRows hle hsl, ← rowCast_eq_bcast hb hb1,
    dotGeneral_eq_matProd d hr hs hl0 hl1 hr0 hr1, dotGeneral_eq_matProd d hr hs hl0 hl1 hr0 hr1, addf_bcastRow]
  rfl

end Generic

/-! ## The two dimension records' index facts: the left index takes the output row and the contraction position, the
    right index the contraction position and the output column -/

theorem d0_lhs0 (i : S40000x256.Idx) (q : dot_S40000x256_S256x256_S40000x256_1_0_0_1_n_n.contr.Idx) :
    (dot_S40000x256_S256x256_S40000x256_1_0_0_1_n_n.lhsIdx i q 0).val = (i 0).val := by
  unfold DotDims.lhsIdx
  rw [dif_neg (show ¬(0 : Fin S40000x256.rank) ∈ dot_S40000x256_S256x256_S40000x256_1_0_0_1_n_n.lhsBatch by decide),
    dif_pos (show (0 : Fin S40000x256.rank) ∈ dot_S40000x256_S256x256_S40000x256_1_0_0_1_n_n.lhsNonContracting by decide)]
  rfl

theorem d0_lhs1 (i : S40000x256.Idx) (q : dot_S40000x256_S256x256_S40000x256_1_0_0_1_n_n.contr.Idx) :
    (dot_S40000x256_S256x256_S40000x256_1_0_0_1_n_n.lhsIdx i q 1).val = (q ⟨0, by decide⟩).val :=
  dot_S40000x256_S256x256_S40000x256_1_0_0_1_n_n.lhsIdx_val_of_single rfl i q

theorem d0_rhs0 (i : S40000x256.Idx) (q : dot_S40000x256_S256x256_S40000x256_1_0_0_1_n_n.contr.Idx) :
    (dot_S40000x256_S256x256_S40000x256_1_0_0_1_n_n.rhsIdx i q 0).val = (q ⟨0, by decide⟩).val :=
  dot_S40000x256_S256x256_S40000x256_1_0_0_1_n_n.rhsIdx_val_of_single rfl i q

theorem d0_rhs1 (i : S40000x256.Idx) (q : dot_S40000x256_S256x256_S40000x256_1_0_0_1_n_n.contr.Idx) :
    (dot_S40000x256_S256x256_S40000x256_1_0_0_1_n_n.rhsIdx i q 1).val = (i 1).val := by
  unfold DotDims.rhsIdx
  rw [dif_neg (show ¬(1 : Fin S256x256.rank) ∈ dot_S40000x256_S256x256_S40000x256_1_0_0_1_n_n.rhsBatch by decide),
    dif_pos (show (1 : Fin S256x256.rank) ∈ dot_S40000x256_S256x256_S40000x256_1_0_0_1_n_n.rhsNonContracting by decide)]
  rfl

theorem d1_lhs0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl

theorem d1_lhs1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q

theorem d1_rhs0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q

theorem d1_rhs1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- Hop 1: divide by the counts raised to one, multiply by `wl`, add the bias row, add the product of the first 40000
    rows of `x` with `wr`, cut off below at zero. -/
theorem layer0 (hc : S40000.ShapeCasts S40000x1) (hb : S256.ShapeCasts S1x256) (hle : 40000 ≤ 200000)
    (agg : FVec Ideal S40000x256 .f32) (cnt : FVec Ideal S40000 .f32) (x : FVec Ideal S200000x256 .f32)
    (wl wr : FVec Ideal S256x256 .f32) (b : FVec Ideal S256 .f32) :
    maximumf (F := Ideal) (addf (addf (Host.dotGeneral dot_S40000x256_S256x256_S40000x256_1_0_0_1_n_n none (Host.divf agg (broadcastInDim S40000x256 ![0, 1] bcast_S40000x1_S40000x256_0_1 (broadcastInDim S40000x1 ![0] bcast_S40000_S40000x1_0 (maximumf cnt (broadcastInDim S40000 ![] bcast_S_S40000 (constant S_ .f32 0x3F800000#32)))))) wl) (broadcastInDim S40000x256 ![0, 1] bcast_S1x256_S40000x256_0_1 (broadcastInDim S1x256 ![1] bcast_S256_S1x256_1 b))) (Host.dotGeneral dot_S40000x256_S256x256_S40000x256_1_0_0_1_n_n none (extractStridedSlice S40000x256 ![0, 0] x slices_S200000x256_S40000x256_0_0) wr)) (broadcastInDim S40000x256 ![] bcast_S_S40000x256 (constant S_ .f32 0x00000000#32))
      = linReluRef agg (shapeCast S40000x1 cnt hc) (topRows hle x) wl (shapeCast S1x256 b hb) wr :=
  funext fun i => by
    show max (_ : EReal) _ = max (linRef agg (shapeCast S40000x1 cnt hc) (topRows hle x) wl (shapeCast S1x256 b hb) wr i) _
    refine congrArg (max · (Ideal.ofBits .f32 0x00000000#32)) (congrFun ?_ i)
    exact hostLayer_eq_linRef dot_S40000x256_S256x256_S40000x256_1_0_0_1_n_n rfl rfl d0_lhs0 d0_lhs1 d0_rhs0 d0_rhs1
      bcast_S40000x1_S40000x256_0_1 bcast_S40000_S40000x1_0 bcast_S_S40000 bcast_S1x256_S40000x256_0_1 bcast_S256_S1x256_1
      slices_S200000x256_S40000x256_0_0 hc hb hle agg cnt x wl wr b

/-- Hop 2: the same on 10000 rows, the own features the first 10000 of the 40000 hidden rows, no cut-off. -/
theorem layer1 (hc : S10000.ShapeCasts S10000x1) (hb : S256.ShapeCasts S1x256) (hle : 10000 ≤ 40000)
    (agg : FVec Ideal S10000x256 .f32) (cnt : FVec Ideal S10000 .f32) (x : FVec Ideal S40000x256 .f32)
    (wl wr : FVec Ideal S256x256 .f32) (b : FVec Ideal S256 .f32) :
    addf (F := Ideal) (addf (Host.dotGeneral dot_S10000x256_S256x256_S10000x256_1_0_0_1_n_n none (Host.divf agg (broadcastInDim S10000x256 ![0, 1] bcast_S10000x1_S10000x256_0_1 (broadcastInDim S10000x1 ![0] bcast_S10000_S10000x1_0 (maximumf cnt (broadcastInDim S10000 ![] bcast_S_S10000 (constant S_ .f32 0x3F800000#32)))))) wl) (broadcastInDim S10000x256 ![0, 1] bcast_S1x256_S10000x256_0_1 (broadcastInDim S1x256 ![1] bcast_S256_S1x256_1 b))) (Host.dotGeneral dot_S10000x256_S256x256_S10000x256_1_0_0_1_n_n none (extractStridedSlice S10000x256 ![0, 0] x slices_S40000x256_S10000x256_0_0) wr)
      = linRef agg (shapeCast S10000x1 cnt hc) (topRows hle x) wl (shapeCast S1x256 b hb) wr :=
  hostLayer_eq_linRef dot_S10000x256_S256x256_S10000x256_1_0_0_1_n_n rfl rfl d1_lhs0 d1_lhs1 d1_rhs0 d1_rhs1
    bcast_S10000x1_S10000x256_0_1 bcast_S10000_S10000x1_0 bcast_S_S10000 bcast_S1x256_S10000x256_0_1 bcast_S256_S1x256_1
    slices_S40000x256_S10000x256_0_0 hc hb hle agg cnt x wl wr b

end Cert.ReferenceIdeal.Layer

end
-- ==== Proof.RefBridge.lean ====
/-
  The reference program's result term is the same function of the eleven argument arrays as the kernel program's:
  each hop's host operations are the layer of whole arrays in the reference's order of the three summands, which is
  the layer in the kernel's order; everything around the two layers — the gathers along the edges, the sums into the
  target rows, the counts — is the same operation on both sides and is never opened.
-/
import proofs.«110619_j42812234006571_2_alg».proof.Proof.Gen.ReferenceIdeal.Run
import proofs.«110619_j42812234006571_2_alg».proof.Proof.RefLayer
import proofs.«110619_j42812234006571_2_alg».proof.Proof.Terms

set_option maxRecDepth 16384

noncomputable section

namespace Cert.ReferenceIdeal.Bridge

open Idealize.ShloMosaic Idealize.ShloMosaic.TcCoe Idealize.SL.Sem
open Cert.SageLin

/-- The reference's result is `Terms.output` of its argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 (F := Ideal) m c
      = Cert.KernelIdeal.Terms.output (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.Value.res_main_v52
  rw [Cert.ReferenceIdeal.Layer.layer1 Cert.KernelIdeal.Facts₀.shapeCasts_S10000_S10000x1 Cert.KernelIdeal.Facts₀.shapeCasts_S256_S1x256 (by norm_num),
    Cert.ReferenceIdeal.Layer.layer0 Cert.KernelIdeal.Facts₀.shapeCasts_S40000_S40000x1 Cert.KernelIdeal.Facts₀.shapeCasts_S256_S1x256 (by norm_num),
    ← lin_eq_linRef, ← linRelu_eq_linReluRef]
  rfl

end Cert.ReferenceIdeal.Bridge

end
-- ==== Proof.lean ====
/-
  A two-hop mean-aggregating graph convolution: the kernel program against its plain reference, on extended reals.

  Each hop gathers the source nodes' feature rows along the edges, adds each gathered row into its target's row, counts
  every target's edges, and applies one linear layer: entry (r, c) of a hop's output is
      (∑ k, (sum(r, k) / max count(r) 1) · Wl(k, c)  +  ∑ k, own(r, k) · Wr(k, c))  +  b(c)
  in the kernel program (a grid of row blocks, each block's two products on the matrix unit into a zero accumulator, the
  bias row added last; the first hop cut off below at zero), and
      (∑ k, (sum(r, k) / max count(r) 1) · Wl(k, c)  +  b(c))  +  ∑ k, own(r, k) · Wr(k, c)
  in the reference (host matrix products). The two differ by the order of the three summands only, and addition of
  extended reals is commutative and associative at every value, so the two are one function of the eleven arguments
  (`Terms.output`) and no entry has to be finite. The gathers, the sums into the target rows and the counts are the same
  operations of the same operands on both sides; the second hop's are taken of the first hop's output, which is the
  same array on both sides once the first layer is.

  The kernel program's side: every grid point of a call writes back its block of the layer of the whole arrays the call
  finds (Region0, Region1, over the body's stored value, Payload), the blocks tile the output, and the arrays a call
  finds are the host operations before it of the arguments and of the earlier call's output (KernelFold, over the run
  KernelRun). The reference's side: its run's result term, each layer's host operations rewritten as the layer
  (RefLayer, RefBridge).
-/
import proofs.«110619_j42812234006571_2_alg».proof.Defs
import proofs.«110619_j42812234006571_2_alg».proof.Proof.Gen.Kernel
import proofs.«110619_j42812234006571_2_alg».proof.Proof.Gen.Kernel.Frame
import proofs.«110619_j42812234006571_2_alg».proof.Proof.Gen.KernelIdeal
import proofs.«110619_j42812234006571_2_alg».proof.Proof.Gen.KernelIdeal.Frame
import proofs.«110619_j42812234006571_2_alg».proof.Proof.Gen.ReferenceIdeal
import proofs.«110619_j42812234006571_2_alg».proof.Proof.Gen.Pre_finite_inputs
import proofs.«110619_j42812234006571_2_alg».proof.Proof.Gen.ReferenceIdeal.Run
import proofs.«110619_j42812234006571_2_alg».proof.Proof.KernelRun
import proofs.«110619_j42812234006571_2_alg».proof.Proof.KernelFold
import proofs.«110619_j42812234006571_2_alg».proof.Proof.RefBridge

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `Terms.output` of the arguments they agree on. -/
theorem algebraic : Cert.algebraic_KernelIdeal_ReferenceIdeal := by
  intro m ρ m' ρ' _ hagree
  refine ⟨fun c => Cert.KernelIdeal.Terms.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Bridge.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
